-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S1 : Shape := ⟨1, ![1]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1 : S_.BroadcastsInDim S1 (![] : Fin 0 → Fin S1.rank)
  reducesTo_S1_S_d0 : S1.ReducesTo [0] S_
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S40 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg6 : FVec F S512x128 .f32) (main_arg7 : FVec F S128 .f32) (main_arg8 : FVec F S128x40 .f32) (main_arg9 : FVec F S40 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S512x128 .f32 := Host.absf main_arg6
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x40 .f32 := Host.absf main_arg8
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg9 main_v33

def fn {F : FTy → Type} [FloatOps F] (main_arg0 : FVec F S50000x512 .f32) (main_arg1 : FVec F S1 .f32) (main_arg2 : IVec S2x1600000 32) (main_arg3 : FVec F S1600000 .f32) (main_arg4 : IVec S2x1600000 32) (main_arg5 : FVec F S1600000 .f32) (main_arg6 : FVec F S512x128 .f32) (main_arg7 : FVec F S128 .f32) (main_arg8 : FVec F S128x40 .f32) (main_arg9 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S1600000 .f32 := Host.absf main_arg5
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg6 main_arg7 main_arg8 main_arg9 main_v13 main_v16
-- ==== Kernel.lean ====
abbrev S50000x512 : Shape := ⟨2, ![50000, 512]⟩
abbrev S1 : Shape := ⟨1, ![1]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000x128 : Shape := ⟨2, ![50000, 128]⟩
abbrev S2000x512 : Shape := ⟨2, ![2000, 512]⟩
abbrev S2000x128 : Shape := ⟨2, ![2000, 128]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S50000x40 : Shape := ⟨2, ![50000, 40]⟩
abbrev S2000x40 : Shape := ⟨2, ![2000, 40]⟩
abbrev S1600000x40 : Shape := ⟨2, ![1600000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 55
  | .vmem => 24
  | .smem => 0
  | _ => 0

abbrev bufTy : (tb : Table) → Fin (tcTables nBuf tb) → BufTy
  | .hbm, ⟨0, _⟩ => ⟨S50000x512, .f32⟩
  | .hbm, ⟨1, _⟩ => ⟨S1, .f32⟩
  | .hbm, ⟨2, _⟩ => ⟨S2x1600000, .i32⟩
  | .hbm, ⟨3, _⟩ => ⟨S1600000, .f32⟩
  | .hbm, ⟨4, _⟩ => ⟨S2x1600000, .i32⟩
  | .hbm, ⟨5, _⟩ => ⟨S1600000, .f32⟩
  | .hbm, ⟨6, _⟩ => ⟨S512x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S50000x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1600000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S50000x128, .f32⟩
  | .hbm, ⟨29, _⟩ => ⟨S1600000x1, .i32⟩
  | .hbm, ⟨30, _⟩ => ⟨S50000x128, .f32⟩
  | .hbm, ⟨31, _⟩ => ⟨S50000x128, .f32⟩
  | .hbm, ⟨32, _⟩ => ⟨S50000x40, .f32⟩
  | .hbm, ⟨33, _⟩ => ⟨S1x1600000, .i32⟩
  | .hbm, ⟨34, _⟩ => ⟨S1600000, .i32⟩
  | .hbm, ⟨35, _⟩ => ⟨S1x1600000, .i32⟩
  | .hbm, ⟨36, _⟩ => ⟨S1600000, .i32⟩
  | .hbm, ⟨37, _⟩ => ⟨S1600000x1, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x40, .f32⟩
  | .hbm, ⟨47, _⟩ => ⟨S1600000x40, .f32⟩
  | .hbm, ⟨48, _⟩ => ⟨S1600000x40, .f32⟩
  | .hbm, ⟨49, _⟩ => ⟨S_, .f32⟩
  | .hbm, ⟨50, _⟩ => ⟨S50000x40, .f32⟩
  | .hbm, ⟨51, _⟩ => ⟨S1600000x1, .i32⟩
  | .hbm, ⟨52, _⟩ => ⟨S50000x40, .f32⟩
  | .hbm, ⟨53, _⟩ => ⟨S50000x40, .f32⟩
  | .hbm, ⟨54, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S40, .f32⟩
  | .local _ .vmem, ⟨18, _⟩ => ⟨S2000x40, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | .local _ .vmem, ⟨22, _⟩ => ⟨S2000x40, .f32⟩
  | .local _ .vmem, ⟨23, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_1 : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1600000x1_S1600000x40_0_1 : S1600000x1.BroadcastsInDim S1600000x40 (![0, 1] : Fin 2 → Fin S1600000x40.rank)
  bcast_S_S50000x40 : S_.BroadcastsInDim S50000x40 (![] : Fin 0 → Fin S50000x40.rank)
  shapeCasts_S2000x40_S2000x40 : S2000x40.ShapeCasts S2000x40
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  dot_S2000x512_S512x128_S2000x128_1_0_0_1_n_n_wf : DotDims.WF S2000x512 S512x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x40_S2000x40_1_0_0_1_n_n_wf : DotDims.WF S2000x128 S128x40 S2000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40.size a ≤ S40.size a
  hwx3_1 : ∀ i : grid3.Coords, EltTy.bits .f32 = 32 ∨ (Rect.block (s := S40) S40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S50000x40.size a
  hwx3_2 : ∀ i : grid3.Coords, EltTy.bits .f32 = 32 ∨ (Rect.block (s := S50000x40) S2000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x40.size a ≤ S50000x40.size a
  hwx4_0 : ∀ i : grid4.Coords, EltTy.bits .f32 = 32 ∨ (Rect.block (s := S50000x40) S2000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x40.size a ≤ S50000x40.size a
  hwx4_1 : ∀ i : grid4.Coords, EltTy.bits .f32 = 32 ∨ (Rect.block (s := S50000x40) S2000x40.size (cc4_transform_1 i) (hinb4_1 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v37) S2000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S2000x40.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S50000x512 : Shape := ⟨2, ![50000, 512]⟩
abbrev S1 : Shape := ⟨1, ![1]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000x128 : Shape := ⟨2, ![50000, 128]⟩
abbrev S1600000x1 : Shape := ⟨2, ![1600000, 1]⟩
abbrev S1x1600000 : Shape := ⟨2, ![1, 1600000]⟩
abbrev S_ : Shape := ⟨0, ![]⟩
abbrev S1600000x128 : Shape := ⟨2, ![1600000, 128]⟩
abbrev S1x128 : Shape := ⟨2, ![1, 128]⟩
abbrev S50000x40 : Shape := ⟨2, ![50000, 40]⟩
abbrev S1600000x40 : Shape := ⟨2, ![1600000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 76
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S1, .f32⟩
  | .hbm, ⟨2, _⟩ => ⟨S2x1600000, .i32⟩
  | .hbm, ⟨3, _⟩ => ⟨S1600000, .f32⟩
  | .hbm, ⟨4, _⟩ => ⟨S2x1600000, .i32⟩
  | .hbm, ⟨5, _⟩ => ⟨S1600000, .f32⟩
  | .hbm, ⟨6, _⟩ => ⟨S512x128, .f32⟩
  | .hbm, ⟨7, _⟩ => ⟨S128, .f32⟩
  | .hbm, ⟨8, _⟩ => ⟨S128x40, .f32⟩
  | .hbm, ⟨9, _⟩ => ⟨S40, .f32⟩
  | .hbm, ⟨10, _⟩ => ⟨S50000x128, .f32⟩
  | .hbm, ⟨11, _⟩ => ⟨S1600000x1, .f32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x128, .f32⟩
  | .hbm, ⟨24, _⟩ => ⟨S1600000x128, .f32⟩
  | .hbm, ⟨25, _⟩ => ⟨S1x1600000, .i32⟩
  | .hbm, ⟨26, _⟩ => ⟨S1600000, .i32⟩
  | .hbm, ⟨27, _⟩ => ⟨S_, .f32⟩
  | .hbm, ⟨28, _⟩ => ⟨S50000x128, .f32⟩
  | .hbm, ⟨29, _⟩ => ⟨S1600000x1, .i32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x40, .f32⟩
  | .hbm, ⟨38, _⟩ => ⟨S1600000x1, .f32⟩
  | .hbm, ⟨39, _⟩ => ⟨S1x1600000, .i32⟩
  | .hbm, ⟨40, _⟩ => ⟨S1600000, .i32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x40, .f32⟩
  | .hbm, ⟨50, _⟩ => ⟨S1600000x40, .f32⟩
  | .hbm, ⟨51, _⟩ => ⟨S1600000x40, .f32⟩
  | .hbm, ⟨52, _⟩ => ⟨S1x1600000, .i32⟩
  | .hbm, ⟨53, _⟩ => ⟨S1600000, .i32⟩
  | .hbm, ⟨54, _⟩ => ⟨S_, .f32⟩
  | .hbm, ⟨55, _⟩ => ⟨S50000x40, .f32⟩
  | .hbm, ⟨56, _⟩ => ⟨S1600000x1, .i32⟩
  | .hbm, ⟨57, _⟩ => ⟨S50000x40, .f32⟩
  | .hbm, ⟨58, _⟩ => ⟨S1x40, .f32⟩
  | .hbm, ⟨59, _⟩ => ⟨S50000x40, .f32⟩
  | .hbm, ⟨60, _⟩ => ⟨S50000x40, .f32⟩
  | .hbm, ⟨61, _⟩ => ⟨S_, .f32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x40, .f32⟩
  | .hbm, ⟨68, _⟩ => ⟨S50000x40, .f32⟩
  | .hbm, ⟨69, _⟩ => ⟨S50000x40, .f32⟩
  | .hbm, ⟨70, _⟩ => ⟨S_, .f32⟩
  | .hbm, ⟨71, _⟩ => ⟨S50000, .f32⟩
  | .hbm, ⟨72, _⟩ => ⟨S50000x1, .f32⟩
  | .hbm, ⟨73, _⟩ => ⟨S50000x1, .f32⟩
  | .hbm, ⟨74, _⟩ => ⟨S50000x40, .f32⟩
  | .hbm, ⟨75, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_call1_cst_0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_cst_1 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_v43 : Ref sig .tc := ⟨.hbm, 75, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  slices_S2x1600000_S1x1600000_1_0 : S2x1600000.Slices ![1, 0] S1x1600000
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x40_0_1 : S1600000x1.BroadcastsInDim S1600000x40 (![0, 1] : Fin 2 → Fin S1600000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x512_S512x128_S50000x128_1_0_0_1_n_n_wf : DotDims.WF S50000x512 S512x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x40_S50000x40_1_0_0_1_n_n_wf : DotDims.WF S50000x128 S128x40 S50000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

class Facts : Prop extends Facts₀ where

variable [Facts]
-- ==== Proof.Product1.lean ====
/-
  Region 0 of the kernel program: the first layer's dense product x · W₁. Each of its 25 grid points takes 2000 rows
  of x (all 512 features) and the whole weight matrix, and writes back the 2000 × 128 product of the two, accumulated
  from zero over the 512 features; the operands' change of format before the product is the identity on the extended
  reals. Here: one stored entry as a sum over the features; the 25 row blocks tile the 50000 × 128 result; hence the
  result array as ONE function of the two arrays the region reads — entry (r, j) is Σₖ x (r, k) · W₁ (k, j).
-/
import proofs.«176632_j53085795778707_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product1

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The matrix product on whole arrays: entry (r, j) is the sum over the 512 features k of x (r, k) · w (k, j). -/
def matProd (x : S50000x512.Idx → EReal) (w : S512x128.Idx → EReal) : S50000x128.Idx → EReal :=
  fun i => ∑ k : Fin 512, x (ix2 ⟨(i 0).val, (i 0).isLt⟩ k) * w (ix2 k ⟨(i 1).val, (i 1).isLt⟩)

/-! ## The block product's operand indices: at output entry (r, j) and contraction index k they are (r, k) and (k, j) -/

theorem lhs_row (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide),
    dif_pos (show (0 : Fin S2000x512.rank) ∈ dot_S2000x512_S512x128_S2000x128_1_0_0_1_n_n.lhsNonContracting by decide)]
  rfl
theorem lhs_col (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_row (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_col (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide),
    dif_pos (show (1 : Fin S512x128.rank) ∈ dot_S2000x512_S512x128_S2000x128_1_0_0_1_n_n.rhsNonContracting by decide)]
  rfl

/-- The body's stored value at row p, column q of its block: the sum over the features k of the x block's (p, k)
    times the weight's (k, q) — the product into a zero accumulator, the format changes dropped. -/
theorem stored_apply (x0 : Vec Ideal S2000x512 .f32) (x1 : Vec Ideal S512x128 .f32) (p : Fin 2000) (q : Fin 128) :
    k0_pay1 x0 x1 (ix2 p q) = ∑ k : Fin 512, x0 (ix2 p k) * x1 (ix2 k q) := by
  unfold k0_pay1
  show FloatOps.matmul dot_S2000x512_S512x128_S2000x128_1_0_0_1_n_n none (truncf (F := Ideal) .bf16 x0 bitsLt_bf16_f32)
    (truncf (F := Ideal) .bf16 x1 bitsLt_bf16_f32) (constant S2000x128 .f32 0x00000000#32) (ix2 p q) = _
  rw [Ideal.matmul_constant_zero_apply,
    ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q)
      ((contrEquiv1 dot_S2000x512_S512x128_S2000x128_1_0_0_1_n_n 512 rfl rfl).symm k) = ix2 p k :=
    funext fun a => Fin.ext (by
      match a with
      | ⟨0, _⟩ => exact lhs_row _ _
      | ⟨1, _⟩ => exact (lhs_col _ _).trans hk)
  have er : dot_S2000x512_S512x128_S2000x128_1_0_0_1_n_n.rhsIdx (ix2 p q)
      ((contrEquiv1 dot_S2000x512_S512x128_S2000x128_1_0_0_1_n_n 512 rfl rfl).symm k) = ix2 k q :=
    funext fun a => Fin.ext (by
      match a with
      | ⟨0, _⟩ => exact (rhs_row _ _).trans hk
      | ⟨1, _⟩ => exact rhs_col _ _)
  show x0 (dot_S2000x512_S512x128_S2000x128_1_0_0_1_n_n.lhsIdx (ix2 p q) _)
      * x1 (dot_S2000x512_S512x128_S2000x128_1_0_0_1_n_n.rhsIdx (ix2 p q) _) = _
  rw [el, er]

/-- Where the three windows' blocks sit at grid point t: the x block and the result block are rows
    2000·t … 2000·t + 1999, all columns; the weight matrix is one block. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the matrix product of the two arrays the region finds. -/
theorem flushed_eq (c : Dev nD) (t : Fin cfg0.N) :
    (dat0 (F := Ideal) V c).flushed 2 t
      = ((cfg0.win 2).blk t).view.read (Elt Ideal) (matProd (V c main_arg0) (V c main_arg6)) := by
  show (cfg0.win 2).cut (grid0.coords t) ((dat0 V c).after 2 t) = _
  rw [after0_2]
  unfold out0_2
  rw [View.canon_unit_zero zero2]
  simp only [View.ld_unit_zero (S := S2000x512) zero2, View.ld_unit_zero (S := S512x128) zero2]
  obtain ⟨e0, e1, e2, e3, e4, e5⟩ := block_index t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q) = _
  refine (stored_apply (iblk0 V c 0 t) (iblk0 V c 1 t) p q).trans ?_
  show _ = matProd (V c main_arg0) (V c main_arg6) (((cfg0.win 2).blk t).view.emb (ix2 p q))
  unfold matProd
  refine Finset.sum_congr rfl fun k _ => ?_
  have h0 : ((cfg0.win 0).blk t).view.emb (ix2 p k)
      = ix2 ⟨((((cfg0.win 2).blk t).view.emb (ix2 p q)) 0).val, ((((cfg0.win 2).blk t).view.emb (ix2 p q)) 0).isLt⟩ k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have h1 : ((cfg0.win 1).blk t).view.emb (ix2 k q)
      = ix2 k ⟨((((cfg0.win 2).blk t).view.emb (ix2 p q)) 1).val, ((((cfg0.win 2).blk t).view.emb (ix2 p q)) 1).isLt⟩ := by
    funext a; apply Fin.ext
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega
  have r0 : iblk0 V c 0 t (ix2 p k) = V c main_arg0 (ix2 ⟨((((cfg0.win 2).blk t).view.emb (ix2 p q)) 0).val,
      ((((cfg0.win 2).blk t).view.emb (ix2 p q)) 0).isLt⟩ k) := by
    show V c main_arg0 (((cfg0.win 0).blk t).view.emb (ix2 p k)) = _
    rw [h0]
    rfl
  have r1 : iblk0 V c 1 t (ix2 k q) = V c main_arg6 (ix2 k ⟨((((cfg0.win 2).blk t).view.emb (ix2 p q)) 1).val,
      ((((cfg0.win 2).blk t).view.emb (ix2 p q)) 1).isLt⟩) := by
    show V c main_arg6 (((cfg0.win 1).blk t).view.emb (ix2 k q)) = _
    rw [h1]
    rfl
  rw [r0, r1]

/-- An index of the result array lies in point t's block iff each coordinate is in the block's range on its axis. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- The 25 row blocks tile the array: row r lies in the block of point r / 2000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < cfg0.N := Nat.lt_of_lt_of_eq (by omega : (i 0).val / 2000 < 25) N_0.symm
  obtain ⟨e0, e1, e2, e3, e4, e5⟩ := block_index ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- The result array after the region: the matrix product of the two arrays the region finds, everywhere. -/
theorem final (c : Dev nD) :
    (dat0 (F := Ideal) V c).arrAt 2 cfg0.N = matProd (V c main_arg0) (V c main_arg6) :=
  (dat0 (F := Ideal) V c).arrAt_eq_of_cover 2 _ (fun t _ => flushed_eq V c t) covered

end Cert.KernelIdeal.Product1

end
-- ==== Proof.Product2.lean ====
/-
  Region 2 of the kernel program: the second layer's dense product h₁ · W₂. Each of its 25 grid points takes 2000
  rows of the hidden features (all 128 of them) and the whole weight matrix, and writes back the 2000 × 40 product of
  the two, accumulated from zero over the 128 hidden features; the operands' change of format before the product is
  the identity on the extended reals. Here: one stored entry as a sum over the hidden features; the 25 row blocks
  tile the 50000 × 40 result; hence the result array as ONE function of the two arrays the region reads — entry
  (r, j) is Σₖ h₁ (r, k) · W₂ (k, j).
-/
import proofs.«176632_j53085795778707_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product2

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The matrix product on whole arrays: entry (r, j) is the sum over the 128 hidden features k of x (r, k) · w (k, j). -/
def matProd (x : S50000x128.Idx → EReal) (w : S128x40.Idx → EReal) : S50000x40.Idx → EReal :=
  fun i => ∑ k : Fin 128, x (ix2 ⟨(i 0).val, (i 0).isLt⟩ k) * w (ix2 k ⟨(i 1).val, (i 1).isLt⟩)

/-! ## The block product's operand indices: at output entry (r, j) and contraction index k they are (r, k) and (k, j) -/

theorem lhs_row (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide),
    dif_pos (show (0 : Fin S2000x128.rank) ∈ dot_S2000x128_S128x40_S2000x40_1_0_0_1_n_n.lhsNonContracting by decide)]
  rfl
theorem lhs_col (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
theorem rhs_row (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
theorem rhs_col (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide),
    dif_pos (show (1 : Fin S128x40.rank) ∈ dot_S2000x128_S128x40_S2000x40_1_0_0_1_n_n.rhsNonContracting by decide)]
  rfl

/-- The body's stored value at row p, column q of its block: the sum over the features k of the x block's (p, k)
    times the weight's (k, q) — the product into a zero accumulator, the format changes dropped. -/
theorem stored_apply (x0 : Vec Ideal S2000x128 .f32) (x1 : Vec Ideal S128x40 .f32) (p : Fin 2000) (q : Fin 40) :
    k2_pay1 x0 x1 (ix2 p q) = ∑ k : Fin 128, x0 (ix2 p k) * x1 (ix2 k q) := by
  unfold k2_pay1
  show FloatOps.matmul dot_S2000x128_S128x40_S2000x40_1_0_0_1_n_n none
    (truncf (F := Ideal) .bf16 (shapeCast S2000x128 x0 shapeCasts_S2000x128_S2000x128) bitsLt_bf16_f32)
    (truncf (F := Ideal) .bf16 x1 bitsLt_bf16_f32) (constant S2000x40 .f32 0x00000000#32) (ix2 p q) = _
  rw [shapeCast_self, Ideal.matmul_constant_zero_apply,
    ← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 p q)
      ((contrEquiv1 dot_S2000x128_S128x40_S2000x40_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x40_S2000x40_1_0_0_1_n_n.rhsIdx (ix2 p q)
      ((contrEquiv1 dot_S2000x128_S128x40_S2000x40_1_0_0_1_n_n 128 rfl rfl).symm k) = ix2 k q :=
    funext fun a => Fin.ext (by
      match a with
      | ⟨0, _⟩ => exact (rhs_row _ _).trans hk
      | ⟨1, _⟩ => exact rhs_col _ _)
  show x0 (dot_S2000x128_S128x40_S2000x40_1_0_0_1_n_n.lhsIdx (ix2 p q) _)
      * x1 (dot_S2000x128_S128x40_S2000x40_1_0_0_1_n_n.rhsIdx (ix2 p q) _) = _
  rw [el, er]

/-- Where the three windows' blocks sit at grid point t: the x block and the result block are rows
    2000·t … 2000·t + 1999, all columns; the weight matrix is one block. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the matrix product of the two arrays the region finds. -/
theorem flushed_eq (c : Dev nD) (t : Fin cfg2.N) :
    (dat2 (F := Ideal) V c).flushed 2 t
      = ((cfg2.win 2).blk t).view.read (Elt Ideal) (matProd (V c main_v18) (V c main_arg8)) := by
  show (cfg2.win 2).cut (grid2.coords t) ((dat2 V c).after 2 t) = _
  rw [after2_2]
  unfold out2_2
  rw [View.canon_unit_zero zero2]
  simp only [View.ld_unit_zero (S := S2000x128) zero2, View.ld_unit_zero (S := S128x40) zero2]
  obtain ⟨e0, e1, e2, e3, e4, e5⟩ := block_index t
  funext j
  obtain ⟨p, q, rfl⟩ : ∃ (p : Fin 2000) (q : Fin 40), j = ix2 p q := ⟨j 0, j 1, eq_ix2 j⟩
  show k2_pay1 (iblk2 V c 0 t) (iblk2 V c 1 t) (ix2 p q) = _
  refine (stored_apply (iblk2 V c 0 t) (iblk2 V c 1 t) p q).trans ?_
  show _ = matProd (V c main_v18) (V c main_arg8) (((cfg2.win 2).blk t).view.emb (ix2 p q))
  unfold matProd
  refine Finset.sum_congr rfl fun k _ => ?_
  have h0 : ((cfg2.win 0).blk t).view.emb (ix2 p k)
      = ix2 ⟨((((cfg2.win 2).blk t).view.emb (ix2 p q)) 0).val, ((((cfg2.win 2).blk t).view.emb (ix2 p q)) 0).isLt⟩ k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have h1 : ((cfg2.win 1).blk t).view.emb (ix2 k q)
      = ix2 k ⟨((((cfg2.win 2).blk t).view.emb (ix2 p q)) 1).val, ((((cfg2.win 2).blk t).view.emb (ix2 p q)) 1).isLt⟩ := by
    funext a; apply Fin.ext
    match a with
    | ⟨0, _⟩ => show win2_1.index t (0 : Fin 2) * 128 + 1 * k.val = k.val; omega
    | ⟨1, _⟩ => show win2_1.index t (1 : Fin 2) * 40 + 1 * q.val = win2_2.index t (1 : Fin 2) * 40 + 1 * q.val; omega
  have r0 : iblk2 V c 0 t (ix2 p k) = V c main_v18 (ix2 ⟨((((cfg2.win 2).blk t).view.emb (ix2 p q)) 0).val,
      ((((cfg2.win 2).blk t).view.emb (ix2 p q)) 0).isLt⟩ k) := by
    show V c main_v18 (((cfg2.win 0).blk t).view.emb (ix2 p k)) = _
    rw [h0]
    rfl
  have r1 : iblk2 V c 1 t (ix2 k q) = V c main_arg8 (ix2 k ⟨((((cfg2.win 2).blk t).view.emb (ix2 p q)) 1).val,
      ((((cfg2.win 2).blk t).view.emb (ix2 p q)) 1).isLt⟩) := by
    show V c main_arg8 (((cfg2.win 1).blk t).view.emb (ix2 k q)) = _
    rw [h1]
    rfl
  rw [r0, r1]

/-- An index of the result array lies in point t's block iff each coordinate is in the block's range on its axis. -/
theorem mem_block (t : Fin cfg2.N) (i : S50000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v19).slice (win2_2.rect t)).set ↔ _
  rw [View.set_slice_whole, Rect.mem_set_unit]
  exact Iff.rfl

/-- The 25 row blocks tile the array: row r lies in the block of point r / 2000. -/
theorem covered (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  have ht : (i 0).val / 2000 < cfg2.N := Nat.lt_of_lt_of_eq (by omega : (i 0).val / 2000 < 25) N_2.symm
  obtain ⟨e0, e1, e2, e3, e4, e5⟩ := block_index ⟨(i 0).val / 2000, ht⟩
  refine ⟨⟨(i 0).val / 2000, ht⟩, flush2_2 _, ?_⟩
  rw [mem_block]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 40 ≤ (i 1).val
      ∧ (i 1).val < win2_2.index ⟨(i 0).val / 2000, ht⟩ (1 : Fin 2) * 40 + 40
    rw [e5]; omega

/-- The result array after the region: the matrix product of the two arrays the region finds, everywhere. -/
theorem final (c : Dev nD) :
    (dat2 (F := Ideal) V c).arrAt 2 cfg2.N = matProd (V c main_v18) (V c main_arg8) :=
  (dat2 (F := Ideal) V c).arrAt_eq_of_cover 2 _ (fun t _ => flushed_eq V c t) covered

end Cert.KernelIdeal.Product2

end
-- ==== Proof.Bias1.lean ====
/-
  Region 1 of the kernel program: the first layer's bias and its cut at zero. Each of its 25 grid points takes 2000
  rows of the aggregated features and the whole bias vector, and writes back the rows with the bias added to every
  row and every negative entry replaced by zero. Here: what one point stores, entry by entry; that the 25 blocks
  tile the 50000 × 128 result; hence the result array as ONE function of the two arrays the region reads.
-/
import proofs.«176632_j53085795778707_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias1

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The whole-array function this region computes: entry (r, j) of the result is entry (r, j) of the matrix plus
    entry j of the bias vector, or the zero the kernel splats where that sum is below it. -/
def rowwise (a : S50000x128.Idx → EReal) (b : S128.Idx → EReal) : S50000x128.Idx → EReal :=
  fun i => max (a i + b (ix1 ⟨(i 1).val, (i 1).isLt⟩)) (Ideal.ofBits .f32 0x00000000#32)

/-- The body's stored value at row p, column q of its block: the block's entry plus the bias entry of column q
    (the bias is cast to one row and that row repeated down the block), or the splatted zero where that is larger. -/
theorem stored_apply (x0 : Vec Ideal S2000x128 .f32) (x1 : Vec Ideal S128 .f32) (p : Fin 2000) (q : Fin 128) :
    k1_pay1 x0 x1 (ix2 p q) = max (x0 (ix2 p q) + x1 (ix1 q)) (Ideal.ofBits .f32 0x00000000#32) := by
  unfold k1_pay1
  show max (shapeCast S2000x128 x0 shapeCasts_S2000x128_S2000x128 (ix2 p q)
      + broadcastTo S2000x128 (shapeCast S1x128 x1 shapeCasts_S128_S1x128) broadcasts_S1x128_S2000x128 (ix2 p q))
    (Ideal.ofBits .f32 0x00000000#32) = _
  rw [shapeCast_self, broadcastTo_1b_ab_apply, shapeCast_a_1a_apply]

/-- Where the three windows' blocks sit at grid point t: the matrix block and the result block are rows
    2000·t … 2000·t + 1999, all columns; the bias is one block. -/
theorem block_index : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What grid point t writes back is block t of `rowwise` of the two arrays the region finds. -/
theorem flushed_eq (c : Dev nD) (t : Fin cfg1.N) :
    (dat1 (F := Ideal) V c).flushed 2 t
      = ((cfg1.win 2).blk t).view.read (Elt Ideal) (rowwise (V c main_v17) (V c main_arg7)) := by
  show (cfg1.win 2).cut (grid1.coords t) ((dat1 V c).after 2 t) = _
  rw [after1_2]
  unfold out1_2
  rw [View.canon_unit_zero zero2]
  simp only [View.ld_unit_zero (S := S2000x128) zero2, View.ld_unit_zero (S := S128) zero1]
  obtain ⟨e0, e1, e2, e3, e4⟩ := block_index t
  funext j
  obtain ⟨p, q, rfl⟩ : ∃ (p : Fin 2000) (q : Fin 128), j = ix2 p q := ⟨j 0, j 1, eq_ix2 j⟩
  show k1_pay1 (iblk1 V c 0 t) (iblk1 V c 1 t) (ix2 p q) = _
  refine (stored_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix1 q)
      = ix1 ⟨((((cfg1.win 2).blk t).view.emb (ix2 p q)) 1).val, ((((cfg1.win 2).blk t).view.emb (ix2 p q)) 1).isLt⟩ := by
    funext a; apply Fin.ext
    match a with
    | ⟨0, _⟩ => show win1_1.index t (0 : Fin 1) * 128 + 1 * q.val = win1_2.index t (1 : Fin 2) * 128 + 1 * q.val; omega
  have r0 : iblk1 V c 0 t (ix2 p q) = V c main_v17 (((cfg1.win 2).blk t).view.emb (ix2 p q)) := by
    show V c main_v17 (((cfg1.win 0).blk t).view.emb (ix2 p q)) = _
    rw [h0]
  have r1 : iblk1 V c 1 t (ix1 q) = V c main_arg7 (ix1 ⟨((((cfg1.win 2).blk t).view.emb (ix2 p q)) 1).val,
      ((((cfg1.win 2).blk t).view.emb (ix2 p q)) 1).isLt⟩) := by
    show V c main_arg7 (((cfg1.win 1).blk t).view.emb (ix1 q)) = _
    rw [h1]
    rfl
  rw [r0, r1]
  rfl

/-- An index of the result array lies in point t's block iff each coordinate is in the block's range on its axis. -/
theorem mem_block (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v18).slice (win1_2.rect t)).set ↔ _
  rw [View.set_slice_whole, Rect.mem_set_unit]
  exact Iff.rfl

/-- The 25 row blocks tile the array: row r lies in the block of point r / 2000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 2000 < cfg1.N := Nat.lt_of_lt_of_eq (by omega : (i 0).val / 2000 < 25) N_1.symm
  obtain ⟨e0, e1, e2, e3, e4⟩ := block_index ⟨(i 0).val / 2000, ht⟩
  refine ⟨⟨(i 0).val / 2000, ht⟩, flush1_2 _, ?_⟩
  rw [mem_block]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e3]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val
      ∧ (i 1).val < win1_2.index ⟨(i 0).val / 2000, ht⟩ (1 : Fin 2) * 128 + 128
    rw [e4]; omega

/-- The result array after the region: `rowwise` of the two arrays the region finds, everywhere. -/
theorem final (c : Dev nD) :
    (dat1 (F := Ideal) V c).arrAt 2 cfg1.N = rowwise (V c main_v17) (V c main_arg7) :=
  (dat1 (F := Ideal) V c).arrAt_eq_of_cover 2 _ (fun t _ => flushed_eq V c t) covered

end Cert.KernelIdeal.Bias1

end
-- ==== Proof.Bias2.lean ====
/-
  Region 3 of the kernel program: the second layer's bias. Each of its 25 grid points takes 2000 rows of the
  aggregated class scores and the whole bias vector, and writes back the rows with the bias added to every row.
  Here: what one point stores, entry by entry; that the 25 blocks tile the 50000 × 40 result; hence the result array
  as ONE function of the two arrays the region reads.
-/
import proofs.«176632_j53085795778707_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Bias2

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The whole-array function this region computes: entry (r, j) of the result is entry (r, j) of the matrix plus
    entry j of the bias vector. -/
def rowwise (a : S50000x40.Idx → EReal) (b : S40.Idx → EReal) : S50000x40.Idx → EReal :=
  fun i => a i + b (ix1 ⟨(i 1).val, (i 1).isLt⟩)

/-- The body's stored value at row p, column q of its block: the block's entry plus the bias entry of column q
    (the bias is cast to one row and that row repeated down the block). -/
theorem stored_apply (x0 : Vec Ideal S2000x40 .f32) (x1 : Vec Ideal S40 .f32) (p : Fin 2000) (q : Fin 40) :
    k3_pay1 x0 x1 (ix2 p q) = x0 (ix2 p q) + x1 (ix1 q) := by
  unfold k3_pay1
  show shapeCast S2000x40 x0 shapeCasts_S2000x40_S2000x40 (ix2 p q)
      + broadcastTo S2000x40 (shapeCast S1x40 x1 shapeCasts_S40_S1x40) broadcasts_S1x40_S2000x40 (ix2 p q) = _
  rw [shapeCast_self, broadcastTo_1b_ab_apply, shapeCast_a_1a_apply]

/-- Where the three windows' blocks sit at grid point t: the matrix block and the result block are rows
    2000·t … 2000·t + 1999, all columns; the bias is one block. -/
theorem block_index : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What grid point t writes back is block t of `rowwise` of the two arrays the region finds. -/
theorem flushed_eq (c : Dev nD) (t : Fin cfg3.N) :
    (dat3 (F := Ideal) V c).flushed 2 t
      = ((cfg3.win 2).blk t).view.read (Elt Ideal) (rowwise (V c main_v36) (V c main_arg9)) := by
  show (cfg3.win 2).cut (grid3.coords t) ((dat3 V c).after 2 t) = _
  rw [after3_2]
  unfold out3_2
  rw [View.canon_unit_zero zero2]
  simp only [View.ld_unit_zero (S := S2000x40) zero2, View.ld_unit_zero (S := S40) zero1]
  obtain ⟨e0, e1, e2, e3, e4⟩ := block_index t
  funext j
  obtain ⟨p, q, rfl⟩ : ∃ (p : Fin 2000) (q : Fin 40), j = ix2 p q := ⟨j 0, j 1, eq_ix2 j⟩
  show k3_pay1 (iblk3 V c 0 t) (iblk3 V c 1 t) (ix2 p q) = _
  refine (stored_apply (iblk3 V c 0 t) (iblk3 V c 1 t) p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 40 + 1 * q.val = win3_2.index t (1 : Fin 2) * 40 + 1 * q.val; omega
  have h1 : ((cfg3.win 1).blk t).view.emb (ix1 q)
      = ix1 ⟨((((cfg3.win 2).blk t).view.emb (ix2 p q)) 1).val, ((((cfg3.win 2).blk t).view.emb (ix2 p q)) 1).isLt⟩ := by
    funext a; apply Fin.ext
    match a with
    | ⟨0, _⟩ => show win3_1.index t (0 : Fin 1) * 40 + 1 * q.val = win3_2.index t (1 : Fin 2) * 40 + 1 * q.val; omega
  have r0 : iblk3 V c 0 t (ix2 p q) = V c main_v36 (((cfg3.win 2).blk t).view.emb (ix2 p q)) := by
    show V c main_v36 (((cfg3.win 0).blk t).view.emb (ix2 p q)) = _
    rw [h0]
  have r1 : iblk3 V c 1 t (ix1 q) = V c main_arg9 (ix1 ⟨((((cfg3.win 2).blk t).view.emb (ix2 p q)) 1).val,
      ((((cfg3.win 2).blk t).view.emb (ix2 p q)) 1).isLt⟩) := by
    show V c main_arg9 (((cfg3.win 1).blk t).view.emb (ix1 q)) = _
    rw [h1]
    rfl
  rw [r0, r1]
  rfl

/-- An index of the result array lies in point t's block iff each coordinate is in the block's range on its axis. -/
theorem mem_block (t : Fin cfg3.N) (i : S50000x40.Idx) :
    i ∈ ((cfg3.win 2).blk t).view.set ↔ ∀ a : Fin 2, win3_2.index t a * S2000x40.size a ≤ (i a).val
      ∧ (i a).val < win3_2.index t a * S2000x40.size a + S2000x40.size a := by
  show i ∈ ((View.whole main_v37).slice (win3_2.rect t)).set ↔ _
  rw [View.set_slice_whole, Rect.mem_set_unit]
  exact Iff.rfl

/-- The 25 row blocks tile the array: row r lies in the block of point r / 2000. -/
theorem covered (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have ht : (i 0).val / 2000 < cfg3.N := Nat.lt_of_lt_of_eq (by omega : (i 0).val / 2000 < 25) N_3.symm
  obtain ⟨e0, e1, e2, e3, e4⟩ := block_index ⟨(i 0).val / 2000, ht⟩
  refine ⟨⟨(i 0).val / 2000, ht⟩, flush3_2 _, ?_⟩
  rw [mem_block]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e3]; show (i 0).val / 2000 * 2000 ≤ (i 0).val ∧ (i 0).val < (i 0).val / 2000 * 2000 + 2000; omega
  | ⟨1, _⟩ =>
    show win3_2.index ⟨(i 0).val / 2000, ht⟩ (1 : Fin 2) * 40 ≤ (i 1).val
      ∧ (i 1).val < win3_2.index ⟨(i 0).val / 2000, ht⟩ (1 : Fin 2) * 40 + 40
    rw [e4]; omega

/-- The result array after the region: `rowwise` of the two arrays the region finds, everywhere. -/
theorem final (c : Dev nD) :
    (dat3 (F := Ideal) V c).arrAt 2 cfg3.N = rowwise (V c main_v36) (V c main_arg9) :=
  (dat3 (F := Ideal) V c).arrAt_eq_of_cover 2 _ (fun t _ => flushed_eq V c t) covered

end Cert.KernelIdeal.Bias2

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.RowLogSoftmax.lean ====
/-
  Region 4 of the kernel program: the log-softmax along each row of 40 class scores. Each of its 25 grid points takes
  2000 rows of scores and writes back, for every row, the scores less the row's largest, less the logarithm of the
  row's sum of the exponentials of those differences. A row's largest entry is the fold of `max` over its 40 entries
  from the value the kernel's −∞ pattern denotes; nothing here evaluates that pattern. Here: one stored entry written
  out; the 25 row blocks tile the 50000 × 40 result; hence the result array as ONE function of the array the region
  reads — every row depends on that row alone.
-/
import proofs.«176632_j53085795778707_1_alg».proof.Proof.Gen.KernelIdeal.Frame
import proofs.«176632_j53085795778707_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.RowLogSoftmax

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-! ## The function on whole arrays -/

/-- Row r's largest score: the fold of `max` over the row's 40 entries, from what the −∞ pattern denotes. -/
def rowTop (s : S50000x40.Idx → EReal) (r : Fin 50000) : EReal :=
  (Finset.univ : Finset (Fin 40)).fold max (Ideal.ofBits .f32 0xFF800000#32) (fun k => s (ix2 r k))

/-- The log-softmax of every row: entry (r, j) is s (r, j) − top r − log Σₖ exp (s (r, k) − top r). -/
def logSoftmaxRows (s : S50000x40.Idx → EReal) : S50000x40.Idx → EReal :=
  fun i => (s i - rowTop s ⟨(i 0).val, (i 0).isLt⟩)
    - Ideal.log (∑ k : Fin 40, Ideal.exp (s (ix2 ⟨(i 0).val, (i 0).isLt⟩ k) - rowTop s ⟨(i 0).val, (i 0).isLt⟩))

/-! ## One block: the two lane reductions and the body's stored value -/

/-- The same fold inside a block of 2000 rows. -/
def blockTop (x : S2000x40.Idx → EReal) (p : Fin 2000) : EReal :=
  (Finset.univ : Finset (Fin 40)).fold max (Ideal.ofBits .f32 0xFF800000#32) (fun k => x (ix2 p k))

/-- The lane maximum of a block at row p is the fold of `max` over that row's 40 entries. -/
theorem laneMax_apply (v : FVec Ideal S2000x40 .f32) (p : Fin 2000) :
    multiReduction .maximumf [1] S2000 v 0xFF800000#32 reduces_S2000x40_S2000 (.inl rfl) rfl (ix1 p) = blockTop v p := by
  refine (Ideal.multiReduction_maximumf_single v 0xFF800000#32 reduces_S2000x40_S2000 (.inl rfl) rfl (ix1 p)).trans ?_
  exact congrArg (fun f : Fin 40 → EReal => (Finset.univ : Finset (Fin 40)).fold max (Ideal.ofBits .f32 0xFF800000#32) f)
    (funext fun k => congrArg v (funext fun a => Fin.ext (by match a with | ⟨0, _⟩ => rfl | ⟨1, _⟩ => rfl)))

/-- The lane sum of a block at row p is the sum of that row's 40 entries. -/
theorem laneSum_apply (v : FVec Ideal S2000x40 .f32) (p : Fin 2000) :
    multiReduction .add [1] S2000 v 0x00000000#32 reduces_S2000x40_S2000 (.inl rfl) rfl (ix1 p) = ∑ k : Fin 40, v (ix2 p k) := by
  refine (Ideal.multiReduction_add_single v 0x00000000#32 reduces_S2000x40_S2000 (.inl rfl) rfl (ix1 p)).trans ?_
  exact Finset.sum_congr rfl fun k _ =>
    congrArg v (funext fun a => Fin.ext (by match a with | ⟨0, _⟩ => rfl | ⟨1, _⟩ => rfl))

/-- The block with each row's largest entry subtracted: the lane maximum kept as a column and repeated along the row. -/
def shiftBlock (x : FVec Ideal S2000x40 .f32) : FVec Ideal S2000x40 .f32 :=
  subf x (broadcastTo S2000x40 (shapeCast S2000x1
    (multiReduction .maximumf [1] S2000 x 0xFF800000#32 reduces_S2000x40_S2000 (.inl rfl) rfl) shapeCasts_S2000_S2000x1)
    broadcasts_S2000x1_S2000x40)

theorem shift_apply (x : FVec Ideal S2000x40 .f32) (p : Fin 2000) (q : Fin 40) :
    shiftBlock x (ix2 p q) = x (ix2 p q) - blockTop x p := by
  unfold shiftBlock
  show x (ix2 p q) - broadcastTo S2000x40 _ broadcasts_S2000x1_S2000x40 (ix2 p q) = _
  rw [broadcastTo_a1_ab_apply, shapeCast_a_a1_apply]
  exact congrArg (x (ix2 p q) - ·) (laneMax_apply x p)

/-- The body's stored block is the shifted block less the logarithm, kept as a column and repeated along the row, of the
    lane sum of the shifted block's exponentials (the block's cast to its own shape is the identity). -/
theorem stored_eq (x0 : FVec Ideal S2000x40 .f32) :
    k4_pay1 x0 = subf (shiftBlock x0) (broadcastTo S2000x40 (log (shapeCast S2000x1
      (multiReduction .add [1] S2000 (exp (shiftBlock x0)) 0x00000000#32 reduces_S2000x40_S2000 (.inl rfl) rfl)
      shapeCasts_S2000_S2000x1)) broadcasts_S2000x1_S2000x40) := by
  unfold k4_pay1 shiftBlock
  show subf (subf (shapeCast S2000x40 x0 shapeCasts_S2000x40_S2000x40) (broadcastTo S2000x40 (shapeCast S2000x1
      (multiReduction .maximumf [1] S2000 (shapeCast S2000x40 x0 shapeCasts_S2000x40_S2000x40) 0xFF800000#32
        reduces_S2000x40_S2000 (.inl rfl) rfl) shapeCasts_S2000_S2000x1) broadcasts_S2000x1_S2000x40))
    (broadcastTo S2000x40 (log (shapeCast S2000x1 (multiReduction .add [1] S2000
      (exp (subf (shapeCast S2000x40 x0 shapeCasts_S2000x40_S2000x40) (broadcastTo S2000x40 (shapeCast S2000x1
        (multiReduction .maximumf [1] S2000 (shapeCast S2000x40 x0 shapeCasts_S2000x40_S2000x40) 0xFF800000#32
          reduces_S2000x40_S2000 (.inl rfl) rfl) shapeCasts_S2000_S2000x1) broadcasts_S2000x1_S2000x40)))
      0x00000000#32 reduces_S2000x40_S2000 (.inl rfl) rfl) shapeCasts_S2000_S2000x1)) broadcasts_S2000x1_S2000x40) = _
  rw [shapeCast_self]

/-- The body's stored value at row p, column q of its block. -/
theorem stored_apply (x0 : FVec Ideal S2000x40 .f32) (p : Fin 2000) (q : Fin 40) :
    k4_pay1 x0 (ix2 p q)
      = (x0 (ix2 p q) - blockTop x0 p) - Ideal.log (∑ k : Fin 40, Ideal.exp (x0 (ix2 p k) - blockTop x0 p)) := by
  rw [stored_eq]
  show shiftBlock x0 (ix2 p q) - broadcastTo S2000x40 _ broadcasts_S2000x1_S2000x40 (ix2 p q) = _
  rw [broadcastTo_a1_ab_apply]
  show shiftBlock x0 (ix2 p q) - Ideal.log (shapeCast S2000x1 _ shapeCasts_S2000_S2000x1 (ix2 p (0 : Fin 1))) = _
  rw [shapeCast_a_a1_apply, laneSum_apply, shift_apply]
  refine congrArg (fun z => (x0 (ix2 p q) - blockTop x0 p) - Ideal.log z) (Finset.sum_congr rfl fun k _ => ?_)
  show Ideal.exp (shiftBlock x0 (ix2 p k)) = _
  rw [shift_apply]

/-! ## From the blocks to the array -/

/-- Where the two windows' blocks sit at grid point t: both are rows 2000·t … 2000·t + 1999, all 40 columns. -/
theorem block_index : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- What grid point t writes back is block t of the row-wise log-softmax of the array the region finds. -/
theorem flushed_eq (c : Dev nD) (t : Fin cfg4.N) :
    (dat4 (F := Ideal) V c).flushed 1 t
      = ((cfg4.win 1).blk t).view.read (Elt Ideal) (logSoftmaxRows (V c main_v37)) := by
  show (cfg4.win 1).cut (grid4.coords t) ((dat4 V c).after 1 t) = _
  rw [after4_1]
  unfold out4_1
  rw [View.canon_unit_zero zero2]
  simp only [View.ld_unit_zero (S := S2000x40) zero2]
  obtain ⟨e0, e1, e2, e3⟩ := block_index t
  funext j
  obtain ⟨p, q, rfl⟩ : ∃ (p : Fin 2000) (q : Fin 40), j = ix2 p q := ⟨j 0, j 1, eq_ix2 j⟩
  show k4_pay1 (iblk4 V c 0 t) (ix2 p q) = _
  refine (stored_apply (iblk4 V c 0 t) p q).trans ?_
  have hrow : ∀ k : Fin 40, iblk4 V c 0 t (ix2 p k)
      = V c main_v37 (ix2 ⟨((((cfg4.win 1).blk t).view.emb (ix2 p q)) 0).val, ((((cfg4.win 1).blk t).view.emb (ix2 p q)) 0).isLt⟩ k) := by
    intro k
    show V c main_v37 (((cfg4.win 0).blk t).view.emb (ix2 p k)) = _
    refine congrArg (V c main_v37) (funext fun a => Fin.ext ?_)
    match a with
    | ⟨0, _⟩ => show win4_0.index t (0 : Fin 2) * 2000 + 1 * p.val = win4_1.index t (0 : Fin 2) * 2000 + 1 * p.val; omega
    | ⟨1, _⟩ => show win4_0.index t (1 : Fin 2) * 40 + 1 * k.val = k.val; omega
  have hq : iblk4 V c 0 t (ix2 p q) = V c main_v37 (((cfg4.win 1).blk t).view.emb (ix2 p q)) := by
    show V c main_v37 (((cfg4.win 0).blk t).view.emb (ix2 p q)) = _
    refine congrArg (V c main_v37) (funext fun a => Fin.ext ?_)
    match a with
    | ⟨0, _⟩ => show win4_0.index t (0 : Fin 2) * 2000 + 1 * p.val = win4_1.index t (0 : Fin 2) * 2000 + 1 * p.val; omega
    | ⟨1, _⟩ => show win4_0.index t (1 : Fin 2) * 40 + 1 * q.val = win4_1.index t (1 : Fin 2) * 40 + 1 * q.val; omega
  have htop : blockTop (iblk4 V c 0 t) p
      = rowTop (V c main_v37) ⟨((((cfg4.win 1).blk t).view.emb (ix2 p q)) 0).val, ((((cfg4.win 1).blk t).view.emb (ix2 p q)) 0).isLt⟩ :=
    congrArg (fun f : Fin 40 → EReal => (Finset.univ : Finset (Fin 40)).fold max (Ideal.ofBits .f32 0xFF800000#32) f) (funext hrow)
  rw [htop, hq, Finset.sum_congr rfl (fun k _ => by rw [hrow k])]
  rfl

/-- An index of the result array lies in point t's block iff each coordinate is in the block's range on its axis. -/
theorem mem_block (t : Fin cfg4.N) (i : S50000x40.Idx) :
    i ∈ ((cfg4.win 1).blk t).view.set ↔ ∀ a : Fin 2, win4_1.index t a * S2000x40.size a ≤ (i a).val
      ∧ (i a).val < win4_1.index t a * S2000x40.size a + S2000x40.size a := by
  show i ∈ ((View.whole main_v38).slice (win4_1.rect t)).set ↔ _
  rw [View.set_slice_whole, Rect.mem_set_unit]
  exact Iff.rfl

/-- The 25 row blocks tile the array: row r lies in the block of point r / 2000. -/
theorem covered (i : S50000x40.Idx) :
    ∃ t : Fin cfg4.N, (cfg4.win 1).flush t = true ∧ i ∈ ((cfg4.win 1).blk t).view.set := by
  have hi0 : (i 0).val < 50000 := (i 0).isLt
  have hi1 : (i 1).val < 40 := (i 1).isLt
  have ht : (i 0).val / 2000 < cfg4.N := Nat.lt_of_lt_of_eq (by omega : (i 0).val / 2000 < 25) N_4.symm
  obtain ⟨e0, e1, e2, e3⟩ := block_index ⟨(i 0).val / 2000, ht⟩
  refine ⟨⟨(i 0).val / 2000, ht⟩, flush4_1 _, ?_⟩
  rw [mem_block]
  intro a
  match a with
  | ⟨0, _⟩ =>
    show win4_1.index ⟨(i 0).val / 2000, ht⟩ (0 : Fin 2) * 2000 ≤ (i 0).val
      ∧ (i 0).val < win4_1.index ⟨(i 0).val / 2000, ht⟩ (0 : Fin 2) * 2000 + 2000
    rw [e2]; show (i 0).val / 2000 * 2000 ≤ (i 0).val ∧ (i 0).val < (i 0).val / 2000 * 2000 + 2000; omega
  | ⟨1, _⟩ =>
    show win4_1.index ⟨(i 0).val / 2000, ht⟩ (1 : Fin 2) * 40 ≤ (i 1).val
      ∧ (i 1).val < win4_1.index ⟨(i 0).val / 2000, ht⟩ (1 : Fin 2) * 40 + 40
    rw [e3]; omega

/-- The result array after the region: the row-wise log-softmax of the array the region finds, everywhere. -/
theorem final (c : Dev nD) :
    (dat4 (F := Ideal) V c).arrAt 1 cfg4.N = logSoftmaxRows (V c main_v37) :=
  (dat4 (F := Ideal) V c).arrAt_eq_of_cover 1 _ (fun t _ => flushed_eq V c t) covered

end Cert.KernelIdeal.RowLogSoftmax

end
-- ==== Proof.KernelRun.lean ====
/-
  The kernel program as a whole: five regions with two stretches of host operations between them.
    region 0   x · W₁                              (Product1)
    host       A₁: every edge sends weight × source row to its target row; a node's row is the sum of what it is sent
    region 1   + b₁, cut at zero                    (Bias1)
    region 2   · W₂                                 (Product2)
    host       A₂, the same over the second edge table
    region 3   + b₂                                 (Bias2)
    region 4   log-softmax along each row           (RowLogSoftmax)
  First the run itself, stated with the result array: every weakly fair execution terminates with each buffer at the
  contents the segment boundaries' fold leaves, the result among them. Then that fold collapsed: each region's exit
  array is its function of its entry arrays, each host stretch is read with what it is given as unknowns, and the
  argument arrays are read back to the launch memory — so the result is ONE function of the nine arguments it reads.
-/
import proofs.«176632_j53085795778707_1_alg».proof.Proof.Product1
import proofs.«176632_j53085795778707_1_alg».proof.Proof.Product2
import proofs.«176632_j53085795778707_1_alg».proof.Proof.Bias1
import proofs.«176632_j53085795778707_1_alg».proof.Proof.Bias2
import proofs.«176632_j53085795778707_1_alg».proof.Proof.RowLogSoftmax
import Idealize.ShloMosaic.Lib.StableHlo.Run

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the result array in its post -/

set_option backward.isDefEq.respectTransparency.types false in
/-- Every weakly fair execution of @main terminates, nothing faulting; the result array ends at the last segment
    boundary's contents and the argument arrays as launched. -/
theorem run_boundary : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v38 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

/-! ## The two host stretches, over any contents they start from -/

/-- The edges' source nodes, one per edge: row 0 of the edge table, a negative entry wrapped by the number of nodes. -/
def srcIdx (ei : (⟨S2x1600000, .i32⟩ : BufTy).Contents (Elt F)) : (⟨S1600000x1, .i32⟩ : BufTy).Contents (Elt F) :=
  broadcastInDim S1600000x1 ![0] bcast_S1600000_S1600000x1_0
    (select (cmpi .slt (shapeCast _ (extractStridedSlice S1x1600000 ![0, 0] ei slices_S2x1600000_S1x1600000_0_0) shapeCasts_S1x1600000_S1600000) (broadcastInDim S1600000 ![] bcast_S_S1600000 (constantI S_ 32 0#32)))
      (addi (shapeCast _ (extractStridedSlice S1x1600000 ![0, 0] ei slices_S2x1600000_S1x1600000_0_0) shapeCasts_S1x1600000_S1600000) (broadcastInDim S1600000 ![] bcast_S_S1600000 (constantI S_ 32 50000#32)))
      (shapeCast _ (extractStridedSlice S1x1600000 ![0, 0] ei slices_S2x1600000_S1x1600000_0_0) shapeCasts_S1x1600000_S1600000))

/-- The edges' target nodes, one per edge: row 1 of the edge table. -/
def dstIdx (ei : (⟨S2x1600000, .i32⟩ : BufTy).Contents (Elt F)) : (⟨S1600000x1, .i32⟩ : BufTy).Contents (Elt F) :=
  broadcastInDim S1600000x1 ![0] bcast_S1600000_S1600000x1_0
    (shapeCast _ (extractStridedSlice S1x1600000 ![1, 0] ei slices_S2x1600000_S1x1600000_1_0) shapeCasts_S1x1600000_S1600000)

/-- Layer 1's neighbourhood sum: every edge sends its weight times its source node's 128 features to its target node,
    and a node's row is the sum of what it is sent. -/
def agg1 (sup : (⟨S50000x128, .f32⟩ : BufTy).Contents (Elt F)) (ei : (⟨S2x1600000, .i32⟩ : BufTy).Contents (Elt F))
    (ew : (⟨S1600000, .f32⟩ : BufTy).Contents (Elt F)) : (⟨S50000x128, .f32⟩ : BufTy).Contents (Elt F) :=
  Host.scatterAdd scatter_S50000x128_S1600000x1_S1600000x128_1_0_0_1
    (broadcastInDim S50000x128 ![] bcast_S_S50000x128 (constant S_ .f32 0x00000000#32)) (dstIdx ei)
    (mulf (broadcastInDim S1600000x128 ![0, 1] bcast_S1600000x1_S1600000x128_0_1 (broadcastInDim S1600000x1 ![0] bcast_S1600000_S1600000x1_0 ew))
      (Host.gather gather_S50000x128_S1600000x1_S1600000x128_1_0_n_n_0_1_1128 sup (srcIdx ei)))

/-- Layer 2's neighbourhood sum, over the 40 class scores. -/
def agg2 (sup : (⟨S50000x40, .f32⟩ : BufTy).Contents (Elt F)) (ei : (⟨S2x1600000, .i32⟩ : BufTy).Contents (Elt F))
    (ew : (⟨S1600000, .f32⟩ : BufTy).Contents (Elt F)) : (⟨S50000x40, .f32⟩ : BufTy).Contents (Elt F) :=
  Host.scatterAdd scatter_S50000x40_S1600000x1_S1600000x40_1_0_0_1
    (broadcastInDim S50000x40 ![] bcast_S_S50000x40 (constant S_ .f32 0x00000000#32)) (dstIdx ei)
    (mulf (broadcastInDim S1600000x40 ![0, 1] bcast_S1600000x1_S1600000x40_0_1 (broadcastInDim S1600000x1 ![0] bcast_S1600000_S1600000x1_0 ew))
      (Host.gather gather_S50000x40_S1600000x1_S1600000x40_1_0_n_n_0_1_140 sup (srcIdx ei)))

set_option maxHeartbeats 2000000 in
/-- The first stretch leaves, in the aggregated features, the neighbourhood sum of the product it finds. -/
theorem host1_reads (W : Valuation τ sig (Elt F)) : StableHlo.after hostOps1 W (Proc.devRef .tc main_v17)
    = agg1 (W (Proc.devRef .tc main_v0)) (W (Proc.devRef .tc main_arg2)) (W (Proc.devRef .tc main_arg3)) := by
  after_results_simp <;> rfl

set_option maxHeartbeats 2000000 in
/-- It writes none of the argument arrays read later. -/
theorem host1_keeps (W : Valuation τ sig (Elt F)) :
    StableHlo.after hostOps1 W (Proc.devRef .tc main_arg7) = W (Proc.devRef .tc main_arg7)
    ∧ StableHlo.after hostOps1 W (Proc.devRef .tc main_arg8) = W (Proc.devRef .tc main_arg8)
    ∧ StableHlo.after hostOps1 W (Proc.devRef .tc main_arg4) = W (Proc.devRef .tc main_arg4)
    ∧ StableHlo.after hostOps1 W (Proc.devRef .tc main_arg5) = W (Proc.devRef .tc main_arg5)
    ∧ StableHlo.after hostOps1 W (Proc.devRef .tc main_arg9) = W (Proc.devRef .tc main_arg9) := by
  refine ⟨?_, ?_, ?_, ?_, ?_⟩ <;> (after_results_simp <;> rfl)

set_option maxHeartbeats 2000000 in
/-- The second stretch leaves, in the aggregated scores, the neighbourhood sum of the product it finds. -/
theorem host3_reads (W : Valuation τ sig (Elt F)) : StableHlo.after hostOps3 W (Proc.devRef .tc main_v36)
    = agg2 (W (Proc.devRef .tc main_v19)) (W (Proc.devRef .tc main_arg4)) (W (Proc.devRef .tc main_arg5)) := by
  after_results_simp <;> rfl

set_option maxHeartbeats 2000000 in
/-- It does not write the second bias. -/
theorem host3_keeps (W : Valuation τ sig (Elt F)) :
    StableHlo.after hostOps3 W (Proc.devRef .tc main_arg9) = W (Proc.devRef .tc main_arg9) := by
  after_results_simp <;> rfl

/-! ## The argument arrays at the boundaries where they are read: still the launch contents -/

theorem W1_arg (c : Dev nD) (b : Ref sig .tc) (hb : ∀ w, Pipeline.arrRef spec0 w ≠ b) :
    W1 m ρ c (Proc.devRef .tc b) = m ((c : Thread nD τ).loc b) := (W1_of_ne m ρ c b hb).trans rfl

theorem V2_arg7 (c : Dev nD) : V2 m ρ c main_arg7 = m ((c : Thread nD τ).loc main_arg7) :=
  (host1_keeps (W1 m ρ c)).1.trans (W1_arg m ρ c main_arg7 (by decide))

theorem V3_arg8 (c : Dev nD) : V3 m ρ c main_arg8 = m ((c : Thread nD τ).loc main_arg8) :=
  (W3_of_ne m ρ c main_arg8 (by decide)).trans ((host1_keeps (W1 m ρ c)).2.1.trans (W1_arg m ρ c main_arg8 (by decide)))

theorem W4_arg4 (c : Dev nD) : W4 m ρ c (Proc.devRef .tc main_arg4) = m ((c : Thread nD τ).loc main_arg4) :=
  (W4_of_ne m ρ c main_arg4 (by decide)).trans ((W3_of_ne m ρ c main_arg4 (by decide)).trans
    ((host1_keeps (W1 m ρ c)).2.2.1.trans (W1_arg m ρ c main_arg4 (by decide))))

theorem W4_arg5 (c : Dev nD) : W4 m ρ c (Proc.devRef .tc main_arg5) = m ((c : Thread nD τ).loc main_arg5) :=
  (W4_of_ne m ρ c main_arg5 (by decide)).trans ((W3_of_ne m ρ c main_arg5 (by decide)).trans
    ((host1_keeps (W1 m ρ c)).2.2.2.1.trans (W1_arg m ρ c main_arg5 (by decide))))

theorem V5_arg9 (c : Dev nD) : V5 m ρ c main_arg9 = m ((c : Thread nD τ).loc main_arg9) :=
  (host3_keeps (W4 m ρ c)).trans ((W4_of_ne m ρ c main_arg9 (by decide)).trans ((W3_of_ne m ρ c main_arg9 (by decide)).trans
    ((host1_keeps (W1 m ρ c)).2.2.2.2.trans (W1_arg m ρ c main_arg9 (by decide)))))

end Cert.KernelIdeal.WholeRun

/-! ## The fold collapsed, on the extended reals -/

namespace Cert.KernelIdeal.WholeRun

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The kernel program's result as a function of the nine argument arrays it reads. -/
def result (x : S50000x512.Idx → EReal) (ei1 : (⟨S2x1600000, .i32⟩ : BufTy).Contents (Elt Ideal)) (ew1 : S1600000.Idx → EReal)
    (ei2 : (⟨S2x1600000, .i32⟩ : BufTy).Contents (Elt Ideal)) (ew2 : S1600000.Idx → EReal)
    (w1 : S512x128.Idx → EReal) (b1 : S128.Idx → EReal) (w2 : S128x40.Idx → EReal) (b2 : S40.Idx → EReal) :
    S50000x40.Idx → EReal :=
  RowLogSoftmax.logSoftmaxRows (Bias2.rowwise (agg2 (F := Ideal)
    (Product2.matProd (Bias1.rowwise (agg1 (F := Ideal) (Product1.matProd x w1) ei1 ew1) b1) w2) ei2 ew2) b2)

/-- The last boundary's contents at the result array are `result` of the launch contents of the arguments. -/
theorem result_eq (c : Dev nD) : W7 m ρ c (Proc.devRef .tc main_v38)
    = result (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have s4 : W7 m ρ c (Proc.devRef .tc main_v38) = RowLogSoftmax.logSoftmaxRows (V6 m ρ c main_v37) :=
    (W7_arr m ρ c 1).trans (RowLogSoftmax.final (V6 m ρ) c)
  have s3 : V6 m ρ c main_v37 = Bias2.rowwise (V5 m ρ c main_v36) (V5 m ρ c main_arg9) :=
    (W6_arr m ρ c 2).trans (Bias2.final (V5 m ρ) c)
  have g3 : V5 m ρ c main_v36 = agg2 (F := Ideal) (W4 m ρ c (Proc.devRef .tc main_v19)) (W4 m ρ c (Proc.devRef .tc main_arg4))
      (W4 m ρ c (Proc.devRef .tc main_arg5)) := host3_reads (W4 m ρ c)
  have s2 : W4 m ρ c (Proc.devRef .tc main_v19) = Product2.matProd (V3 m ρ c main_v18) (V3 m ρ c main_arg8) :=
    (W4_arr m ρ c 2).trans (Product2.final (V3 m ρ) c)
  have s1 : V3 m ρ c main_v18 = Bias1.rowwise (V2 m ρ c main_v17) (V2 m ρ c main_arg7) :=
    (W3_arr m ρ c 2).trans (Bias1.final (V2 m ρ) c)
  have g1 : V2 m ρ c main_v17 = agg1 (F := Ideal) (W1 m ρ c (Proc.devRef .tc main_v0)) (W1 m ρ c (Proc.devRef .tc main_arg2))
      (W1 m ρ c (Proc.devRef .tc main_arg3)) := host1_reads (W1 m ρ c)
  have s0 : W1 m ρ c (Proc.devRef .tc main_v0) = Product1.matProd (V0 m ρ c main_arg0) (V0 m ρ c main_arg6) :=
    (W1_arr m ρ c 2).trans (Product1.final (V0 m ρ) c)
  rw [s4, s3, g3, V5_arg9 m ρ c, s2, V3_arg8 m ρ c, s1, V2_arg7 m ρ c, g1, s0, W4_arg4 m ρ c, W4_arg5 m ρ c,
    W1_arg m ρ c main_arg2 (by decide), W1_arg m ρ c main_arg3 (by decide)]
  rfl

/-- THE KERNEL'S RUN: every weakly fair execution terminates with the result array at `result` of the arguments, and
    the arguments unchanged. -/
theorem run : θ_run defs (onTc (τ := τ) (main (F := Ideal))) ⟨m, fun _ => 0, ρ⟩ (fun r => ∀ c : Dev nD,
      r.2.mem ((c.tc : Thread nD τ).loc main_v38)
        = result (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_boundary m ρ)

end Cert.KernelIdeal.WholeRun

end
-- ==== Proof.RefValue.lean ====
/-
  What the reference program computes, read off its run in three stretches instead of as one term.
  The reference is a two-layer graph convolution followed by a row-wise log-softmax:
    layer 1:  h₁ = max (A₁ (x · W₁) + b₁) 0        (A₁: every edge sends weight × source row to its target row; rows summed)
    layer 2:  s  = A₂ (h₁ · W₂) + b₂
    result:   s − rowmax s − log (Σ exp (s − rowmax s))   along each row of 40 class scores.
  @main's 66 host operations fall into these three stretches; each stretch's result is a function of the arrays it is
  given, the previous stretch's result among them, and the program's result is the composition of the three.
-/
import proofs.«176632_j53085795778707_1_alg».proof.Proof.RefRunP

noncomputable section

namespace Cert.ReferenceIdeal.RefValue

open Cert.ReferenceIdeal Cert.ReferenceIdeal.Gen Cert.ReferenceIdeal.ValueP Idealize.ShloMosaic Idealize.ShloMosaic.TcCoe Idealize.SL.Sem
open Idealize.ShloMosaic.StableHlo

variable {F : FTy → Type} [FloatOps F]

/-! ## The program's operations in three stretches -/

/-- Layer 1: the product x · W₁, the neighbourhood sum over the first edge table, the bias, the cut at zero. -/
abbrev opsA : List (HloOp τ sig (Elt F)) :=
  [ binary main_arg0 main_arg6 main_v0 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    unary main_arg3 main_v1 (broadcastInDim S1600000x1 ![0] bcast_S1600000_S1600000x1_0 : (⟨S1600000, .f32⟩ : BufTy).Contents (Elt F) → (⟨S1600000x1, .f32⟩ : BufTy).Contents (Elt F)),
    unary main_arg2 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v3 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v6 (broadcastInDim S1600000 ![] bcast_S_S1600000 : (⟨S_, .i32⟩ : BufTy).Contents (Elt F) → (⟨S1600000, .i32⟩ : BufTy).Contents (Elt F)),
    binary main_v3 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v3 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_v0 main_v9 main_v10 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v1 main_v11 (broadcastInDim S1600000x128 ![0, 1] bcast_S1600000x1_S1600000x128_0_1 : (⟨S1600000x1, .f32⟩ : BufTy).Contents (Elt F) → (⟨S1600000x128, .f32⟩ : BufTy).Contents (Elt F)),
    binary main_v11 main_v10 main_v12 (mulf : (⟨S1600000x128, .f32⟩ : BufTy).Contents (Elt F) → (⟨S1600000x128, .f32⟩ : BufTy).Contents (Elt F) → (⟨S1600000x128, .f32⟩ : BufTy).Contents (Elt F)),
    unary main_arg2 main_v13 ((extractStridedSlice S1x1600000 ![1, 0] · slices_S2x1600000_S1x1600000_1_0) : (⟨S2x1600000, .i32⟩ : BufTy).Contents (Elt F) → (⟨S1x1600000, .i32⟩ : BufTy).Contents (Elt F)),
    reshape main_v13 main_v14 rfl shapeCasts_S1x1600000_S1600000,
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v14 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v12 main_v17 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_arg7 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v20) (TRef.of (T := ⟨S50000x128, .f32⟩) main_call0_v0) (TRef.of (T := ⟨S50000x128, .f32⟩) main_v21) maximumf ]

/-- Layer 2: the product h₁ · W₂, the neighbourhood sum over the second edge table, the bias. -/
abbrev opsB : List (HloOp τ sig (Elt F)) :=
  [ binary main_v21 main_arg8 main_v22 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg5 main_v23 (broadcastInDim S1600000x1 ![0] bcast_S1600000_S1600000x1_0 : (⟨S1600000, .f32⟩ : BufTy).Contents (Elt F) → (⟨S1600000x1, .f32⟩ : BufTy).Contents (Elt F)),
    unary main_arg4 main_v24 ((extractStridedSlice S1x1600000 ![0, 0] · slices_S2x1600000_S1x1600000_0_0) : (⟨S2x1600000, .i32⟩ : BufTy).Contents (Elt F) → (⟨S1x1600000, .i32⟩ : BufTy).Contents (Elt F)),
    reshape main_v24 main_v25 rfl shapeCasts_S1x1600000_S1600000,
    nullary main_c_1 (constantI S_ 32 0#32),
    unary main_c_1 main_v26 (broadcastInDim S1600000 ![] bcast_S_S1600000 : (⟨S_, .i32⟩ : BufTy).Contents (Elt F) → (⟨S1600000, .i32⟩ : BufTy).Contents (Elt F)),
    binary main_v25 main_v26 main_v27 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v28 (broadcastInDim S1600000 ![] bcast_S_S1600000 : (⟨S_, .i32⟩ : BufTy).Contents (Elt F) → (⟨S1600000, .i32⟩ : BufTy).Contents (Elt F)),
    binary main_v25 main_v28 main_v29 (addi : (⟨S1600000, .i32⟩ : BufTy).Contents (Elt F) → (⟨S1600000, .i32⟩ : BufTy).Contents (Elt F) → (⟨S1600000, .i32⟩ : BufTy).Contents (Elt F)),
    ternary main_v27 main_v29 main_v25 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v30 main_v31 (broadcastInDim S1600000x1 ![0] bcast_S1600000_S1600000x1_0 : (⟨S1600000, .i32⟩ : BufTy).Contents (Elt F) → (⟨S1600000x1, .i32⟩ : BufTy).Contents (Elt F)),
    binary main_v22 main_v31 main_v32 ((fun x i => Host.gather gather_S50000x40_S1600000x1_S1600000x40_1_0_n_n_0_1_140 x i) : (⟨S50000x40, .f32⟩ : BufTy).Contents (Elt F) → (⟨S1600000x1, .i32⟩ : BufTy).Contents (Elt F) → (⟨S1600000x40, .f32⟩ : BufTy).Contents (Elt F)),
    unary main_v23 main_v33 (broadcastInDim S1600000x40 ![0, 1] bcast_S1600000x1_S1600000x40_0_1 : (⟨S1600000x1, .f32⟩ : BufTy).Contents (Elt F) → (⟨S1600000x40, .f32⟩ : BufTy).Contents (Elt F)),
    binary main_v33 main_v32 main_v34 (mulf : (⟨S1600000x40, .f32⟩ : BufTy).Contents (Elt F) → (⟨S1600000x40, .f32⟩ : BufTy).Contents (Elt F) → (⟨S1600000x40, .f32⟩ : BufTy).Contents (Elt F)),
    unary main_arg4 main_v35 ((extractStridedSlice S1x1600000 ![1, 0] · slices_S2x1600000_S1x1600000_1_0) : (⟨S2x1600000, .i32⟩ : BufTy).Contents (Elt F) → (⟨S1x1600000, .i32⟩ : BufTy).Contents (Elt F)),
    reshape main_v35 main_v36 rfl shapeCasts_S1x1600000_S1600000,
    nullary main_cst_3 (constant S_ .f32 0x00000000#32),
    unary main_cst_3 main_v37 (broadcastInDim S50000x40 ![] bcast_S_S50000x40 : (⟨S_, .f32⟩ : BufTy).Contents (Elt F) → (⟨S50000x40, .f32⟩ : BufTy).Contents (Elt F)),
    unary main_v36 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v34 main_v39 ((fun x i u => Host.scatterAdd scatter_S50000x40_S1600000x1_S1600000x40_1_0_0_1 x i u) : (⟨S50000x40, .f32⟩ : BufTy).Contents (Elt F) → (⟨S1600000x1, .i32⟩ : BufTy).Contents (Elt F) → (⟨S1600000x40, .f32⟩ : BufTy).Contents (Elt F) → (⟨S50000x40, .f32⟩ : BufTy).Contents (Elt F)),
    unary main_arg9 main_v40 (broadcastInDim S1x40 ![1] bcast_S40_S1x40_1 : (⟨S40, .f32⟩ : BufTy).Contents (Elt F) → (⟨S1x40, .f32⟩ : BufTy).Contents (Elt F)),
    unary main_v40 main_v41 (broadcastInDim S50000x40 ![0, 1] bcast_S1x40_S50000x40_0_1 : (⟨S1x40, .f32⟩ : BufTy).Contents (Elt F) → (⟨S50000x40, .f32⟩ : BufTy).Contents (Elt F)),
    binary main_v39 main_v41 main_v42 (addf : (⟨S50000x40, .f32⟩ : BufTy).Contents (Elt F) → (⟨S50000x40, .f32⟩ : BufTy).Contents (Elt F) → (⟨S50000x40, .f32⟩ : BufTy).Contents (Elt F)) ]

/-- The log-softmax along each row. -/
abbrev opsC : List (HloOp τ sig (Elt F)) :=
  [ TRef.nullary (TRef.of (T := ⟨S_, .f32⟩) main_call1_cst) (constant S_ .f32 0xFF800000#32),
    TRef.binary (TRef.of (T := ⟨S50000x40, .f32⟩) main_v42) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v42) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v43) subf ]

set_option maxRecDepth 8192 in
/-- @main's 66 operations are the three stretches in order. -/
theorem ops_split : (ops : List (HloOp τ sig (Elt F))) = opsA ++ (opsB ++ opsC) := rfl

/-- Running one list after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The three stretches as functions of what they read -/

/-- The edges' source nodes, one per edge: row 0 of the edge table, a negative entry wrapped by the number of nodes. -/
def srcIdx (ei : (⟨S2x1600000, .i32⟩ : BufTy).Contents (Elt F)) : (⟨S1600000x1, .i32⟩ : BufTy).Contents (Elt F) :=
  broadcastInDim S1600000x1 ![0] bcast_S1600000_S1600000x1_0
    (select (cmpi .slt (shapeCast _ (extractStridedSlice S1x1600000 ![0, 0] ei slices_S2x1600000_S1x1600000_0_0) shapeCasts_S1x1600000_S1600000) (broadcastInDim S1600000 ![] bcast_S_S1600000 (constantI S_ 32 0#32)))
      (addi (shapeCast _ (extractStridedSlice S1x1600000 ![0, 0] ei slices_S2x1600000_S1x1600000_0_0) shapeCasts_S1x1600000_S1600000) (broadcastInDim S1600000 ![] bcast_S_S1600000 (constantI S_ 32 50000#32)))
      (shapeCast _ (extractStridedSlice S1x1600000 ![0, 0] ei slices_S2x1600000_S1x1600000_0_0) shapeCasts_S1x1600000_S1600000))

/-- The edges' target nodes, one per edge: row 1 of the edge table. -/
def dstIdx (ei : (⟨S2x1600000, .i32⟩ : BufTy).Contents (Elt F)) : (⟨S1600000x1, .i32⟩ : BufTy).Contents (Elt F) :=
  broadcastInDim S1600000x1 ![0] bcast_S1600000_S1600000x1_0
    (shapeCast _ (extractStridedSlice S1x1600000 ![1, 0] ei slices_S2x1600000_S1x1600000_1_0) shapeCasts_S1x1600000_S1600000)

/-- Layer 1's neighbourhood sum: every edge sends its weight times its source node's 128 features to its target node,
    and a node's row is the sum of what it is sent. -/
def agg1 (sup : (⟨S50000x128, .f32⟩ : BufTy).Contents (Elt F)) (ei : (⟨S2x1600000, .i32⟩ : BufTy).Contents (Elt F))
    (ew : (⟨S1600000, .f32⟩ : BufTy).Contents (Elt F)) : (⟨S50000x128, .f32⟩ : BufTy).Contents (Elt F) :=
  Host.scatterAdd scatter_S50000x128_S1600000x1_S1600000x128_1_0_0_1
    (broadcastInDim S50000x128 ![] bcast_S_S50000x128 (constant S_ .f32 0x00000000#32)) (dstIdx ei)
    (mulf (broadcastInDim S1600000x128 ![0, 1] bcast_S1600000x1_S1600000x128_0_1 (broadcastInDim S1600000x1 ![0] bcast_S1600000_S1600000x1_0 ew))
      (Host.gather gather_S50000x128_S1600000x1_S1600000x128_1_0_n_n_0_1_1128 sup (srcIdx ei)))

/-- Layer 2's neighbourhood sum, over the 40 class scores. -/
def agg2 (sup : (⟨S50000x40, .f32⟩ : BufTy).Contents (Elt F)) (ei : (⟨S2x1600000, .i32⟩ : BufTy).Contents (Elt F))
    (ew : (⟨S1600000, .f32⟩ : BufTy).Contents (Elt F)) : (⟨S50000x40, .f32⟩ : BufTy).Contents (Elt F) :=
  Host.scatterAdd scatter_S50000x40_S1600000x1_S1600000x40_1_0_0_1
    (broadcastInDim S50000x40 ![] bcast_S_S50000x40 (constant S_ .f32 0x00000000#32)) (dstIdx ei)
    (mulf (broadcastInDim S1600000x40 ![0, 1] bcast_S1600000x1_S1600000x40_0_1 (broadcastInDim S1600000x1 ![0] bcast_S1600000_S1600000x1_0 ew))
      (Host.gather gather_S50000x40_S1600000x1_S1600000x40_1_0_n_n_0_1_140 sup (srcIdx ei)))

/-- Layer 1: the bias added to the neighbourhood sum of x · W₁, negative entries cut to zero. -/
def hidden1 (x : (⟨S50000x512, .f32⟩ : BufTy).Contents (Elt F)) (w1 : (⟨S512x128, .f32⟩ : BufTy).Contents (Elt F)) (ei : (⟨S2x1600000, .i32⟩ : BufTy).Contents (Elt F)) (ew : (⟨S1600000, .f32⟩ : BufTy).Contents (Elt F))
    (b1 : (⟨S128, .f32⟩ : BufTy).Contents (Elt F)) : (⟨S50000x128, .f32⟩ : BufTy).Contents (Elt F) :=
  maximumf (addf (agg1 (Host.dotGeneral dot_S50000x512_S512x128_S50000x128_1_0_0_1_n_n none x w1) ei ew)
      (broadcastInDim S50000x128 ![0, 1] bcast_S1x128_S50000x128_0_1 (broadcastInDim S1x128 ![1] bcast_S128_S1x128_1 b1)))
    (broadcastInDim S50000x128 ![] bcast_S_S50000x128 (constant S_ .f32 0x00000000#32))

/-- Layer 2: the bias added to the neighbourhood sum of h₁ · W₂. -/
def scores2 (h1 : (⟨S50000x128, .f32⟩ : BufTy).Contents (Elt F)) (w2 : (⟨S128x40, .f32⟩ : BufTy).Contents (Elt F)) (ei : (⟨S2x1600000, .i32⟩ : BufTy).Contents (Elt F)) (ew : (⟨S1600000, .f32⟩ : BufTy).Contents (Elt F))
    (b2 : (⟨S40, .f32⟩ : BufTy).Contents (Elt F)) : (⟨S50000x40, .f32⟩ : BufTy).Contents (Elt F) :=
  addf (agg2 (Host.dotGeneral dot_S50000x128_S128x40_S50000x40_1_0_0_1_n_n none h1 w2) ei ew)
    (broadcastInDim S50000x40 ![0, 1] bcast_S1x40_S50000x40_0_1 (broadcastInDim S1x40 ![1] bcast_S40_S1x40_1 b2))

/-- Each row's largest score (the reduction starts from −∞ and its result is once more compared with −∞). -/
def rowMax (s : (⟨S50000x40, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf s (constant S_ .f32 0xFF800000#32) reducesTo_S50000x40_S50000_d1 h_S_)

/-- The scores with their row's largest subtracted. -/
def shifted (s : (⟨S50000x40, .f32⟩ : BufTy).Contents (Elt F)) : (⟨S50000x40, .f32⟩ : BufTy).Contents (Elt F) :=
  subf s (broadcastInDim S50000x40 ![0, 1] bcast_S50000x1_S50000x40_0_1 (broadcastInDim S50000x1 ![0] bcast_S50000_S50000x1_0 (rowMax s)))

/-- The log-softmax of every row: the shifted scores less the logarithm of the row's sum of their exponentials. -/
def logSoftmax (s : (⟨S50000x40, .f32⟩ : BufTy).Contents (Elt F)) : (⟨S50000x40, .f32⟩ : BufTy).Contents (Elt F) :=
  subf (shifted s) (broadcastInDim S50000x40 ![0, 1] bcast_S50000x1_S50000x40_0_1
    (Host.log (broadcastInDim S50000x1 ![0] bcast_S50000_S50000x1_0
      (Host.reduceAdd (Host.exp (shifted s)) (constant S_ .f32 0x00000000#32) reducesTo_S50000x40_S50000_d1 h_S_))))

/-! ## Each stretch read back -/

/-- Contents carried to a buffer's own type and back again are unchanged. -/
theorem ofBuf_toBuf {T : BufTy} (x : TRef sig T) (v : T.Contents (Elt F)) : x.ofBuf (x.toBuf v) = v := by
  obtain ⟨r, rfl, h2, h3⟩ := x
  rfl

set_option maxHeartbeats 2000000 in
/-- After layer 1's operations the hidden features hold `hidden1` of the arguments. -/
theorem readA (V : Valuation τ sig (Elt F)) : after opsA V (Proc.devRef .tc main_v21)
    = hidden1 (V (Proc.devRef .tc main_arg0)) (V (Proc.devRef .tc main_arg6)) (V (Proc.devRef .tc main_arg2))
        (V (Proc.devRef .tc main_arg3)) (V (Proc.devRef .tc main_arg7)) := by
  after_results_simp <;> rfl

set_option maxHeartbeats 2000000 in
/-- Layer 1 writes none of the arrays layer 2 reads besides the hidden features. -/
theorem keepA (V : Valuation τ sig (Elt F)) :
    after opsA V (Proc.devRef .tc main_arg8) = V (Proc.devRef .tc main_arg8)
    ∧ after opsA V (Proc.devRef .tc main_arg4) = V (Proc.devRef .tc main_arg4)
    ∧ after opsA V (Proc.devRef .tc main_arg5) = V (Proc.devRef .tc main_arg5)
    ∧ after opsA V (Proc.devRef .tc main_arg9) = V (Proc.devRef .tc main_arg9) := by
  refine ⟨?_, ?_, ?_, ?_⟩ <;> (after_results_simp <;> rfl)

set_option maxHeartbeats 2000000 in
/-- After layer 2's operations the class scores hold `scores2` of the hidden features and the arguments. -/
theorem readB (V : Valuation τ sig (Elt F)) : after opsB V (Proc.devRef .tc main_v42)
    = scores2 (V (Proc.devRef .tc main_v21)) (V (Proc.devRef .tc main_arg8)) (V (Proc.devRef .tc main_arg4))
        (V (Proc.devRef .tc main_arg5)) (V (Proc.devRef .tc main_arg9)) := by
  after_results_simp <;> rfl

set_option maxHeartbeats 2000000 in
/-- After the last stretch the result holds the log-softmax of the class scores. -/
theorem readC (V : Valuation τ sig (Elt F)) : after opsC V (Proc.devRef .tc main_v43)
    = logSoftmax (V (Proc.devRef .tc main_v42)) := by
  after_results_simp
  simp only [ofBuf_toBuf]
  rfl

/-- The reference's result as a function of its argument arrays. -/
def result (x : (⟨S50000x512, .f32⟩ : BufTy).Contents (Elt F)) (ei1 : (⟨S2x1600000, .i32⟩ : BufTy).Contents (Elt F)) (ew1 : (⟨S1600000, .f32⟩ : BufTy).Contents (Elt F)) (ei2 : (⟨S2x1600000, .i32⟩ : BufTy).Contents (Elt F)) (ew2 : (⟨S1600000, .f32⟩ : BufTy).Contents (Elt F))
    (w1 : (⟨S512x128, .f32⟩ : BufTy).Contents (Elt F)) (b1 : (⟨S128, .f32⟩ : BufTy).Contents (Elt F)) (w2 : (⟨S128x40, .f32⟩ : BufTy).Contents (Elt F)) (b2 : (⟨S40, .f32⟩ : BufTy).Contents (Elt F)) : (⟨S50000x40, .f32⟩ : BufTy).Contents (Elt F) :=
  logSoftmax (scores2 (hidden1 x w1 ei1 ew1 b1) w2 ei2 ew2 b2)

/-- The whole list read back: the result buffer ends at `result` of the launch contents of the arguments. -/
theorem read_all (V : Valuation τ sig (Elt F)) : after ops V (Proc.devRef .tc main_v43)
    = result (V (Proc.devRef .tc main_arg0)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) (V (Proc.devRef .tc main_arg9)) := by
  obtain ⟨k8, k4, k5, k9⟩ := keepA V
  rw [ops_split, after_append, after_append, readC, readB, readA, k8, k4, k5, k9]
  rfl

/-! ## The run -/

set_option maxRecDepth 8192 in
set_option maxHeartbeats 26400000 in
/-- Every weakly fair execution of the reference terminates with its result at `result` of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
        = result (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v43).trans (read_all (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_fold m ρ)

end Cert.ReferenceIdeal.RefValue

end
-- ==== Proof.Bridge.lean ====
/-
  The reference's result and the kernel program's are one function of the arguments. Stage by stage:
    the host's dot product is the sum over the contracted index that the kernel's blocks add up to;
    the host's bias term (the vector made one row, the row repeated down the matrix) adds entry j of the vector in
    column j, as the kernel's broadcast does, and the cut at zero compares with the same zero;
    the neighbourhood sums are the same host operations in both programs and are never opened;
    the host's row maximum, compared once more with −∞, is the fold of `max` over the row from −∞ (a fold is at least
    its starting value), and the host's row sum starts from zero — so the log-softmax is the kernel's, row by row.
-/
import proofs.«176632_j53085795778707_1_alg».proof.Proof.KernelRun
import proofs.«176632_j53085795778707_1_alg».proof.Proof.RefValue
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.ShloMosaic.ValueIdx
open Cert.ReferenceIdeal Cert.ReferenceIdeal.Gen
open Cert.KernelIdeal.RowLogSoftmax (rowTop logSoftmaxRows)

/-! ## The two dot products -/

theorem lhs1_row (i : S50000x128.Idx) (q : dot_S50000x512_S512x128_S50000x128_1_0_0_1_n_n.contr.Idx) : (dot_S50000x512_S512x128_S50000x128_1_0_0_1_n_n.lhsIdx i q 0).val = (i 0).val := by
  unfold DotDims.lhsIdx
  rw [dif_neg (show ¬(0 : Fin S50000x512.rank) ∈ dot_S50000x512_S512x128_S50000x128_1_0_0_1_n_n.lhsBatch by decide),
    dif_pos (show (0 : Fin S50000x512.rank) ∈ dot_S50000x512_S512x128_S50000x128_1_0_0_1_n_n.lhsNonContracting by decide)]
  rfl
theorem lhs1_col (i : S50000x128.Idx) (q : dot_S50000x512_S512x128_S50000x128_1_0_0_1_n_n.contr.Idx) : (dot_S50000x512_S512x128_S50000x128_1_0_0_1_n_n.lhsIdx i q 1).val = (q ⟨0, by decide⟩).val :=
  dot_S50000x512_S512x128_S50000x128_1_0_0_1_n_n.lhsIdx_val_of_single rfl i q
theorem rhs1_row (i : S50000x128.Idx) (q : dot_S50000x512_S512x128_S50000x128_1_0_0_1_n_n.contr.Idx) : (dot_S50000x512_S512x128_S50000x128_1_0_0_1_n_n.rhsIdx i q 0).val = (q ⟨0, by decide⟩).val :=
  dot_S50000x512_S512x128_S50000x128_1_0_0_1_n_n.rhsIdx_val_of_single rfl i q
theorem rhs1_col (i : S50000x128.Idx) (q : dot_S50000x512_S512x128_S50000x128_1_0_0_1_n_n.contr.Idx) : (dot_S50000x512_S512x128_S50000x128_1_0_0_1_n_n.rhsIdx i q 1).val = (i 1).val := by
  unfold DotDims.rhsIdx
  rw [dif_neg (show ¬(1 : Fin S512x128.rank) ∈ dot_S50000x512_S512x128_S50000x128_1_0_0_1_n_n.rhsBatch by decide),
    dif_pos (show (1 : Fin S512x128.rank) ∈ dot_S50000x512_S512x128_S50000x128_1_0_0_1_n_n.rhsNonContracting by decide)]
  rfl

/-- The first layer's product on the host is the matrix product. -/
theorem product1_eq (x : FVec Ideal S50000x512 .f32) (w : FVec Ideal S512x128 .f32) :
    Host.dotGeneral dot_S50000x512_S512x128_S50000x128_1_0_0_1_n_n none x w = Cert.KernelIdeal.Product1.matProd x w := by
  funext i
  simp only [Host.dotGeneral]
  rw [Ideal.dotGeneral_apply, ← Equiv.sum_comp (contrEquiv1 dot_S50000x512_S512x128_S50000x128_1_0_0_1_n_n 512 rfl rfl).symm]
  show _ = ∑ k : Fin 512, x (ix2 ⟨(i 0).val, (i 0).isLt⟩ k) * w (ix2 k ⟨(i 1).val, (i 1).isLt⟩)
  refine Finset.sum_congr rfl fun k _ => ?_
  have hk := contrEquiv1_symm_val dot_S50000x512_S512x128_S50000x128_1_0_0_1_n_n 512 rfl rfl k
  have el : dot_S50000x512_S512x128_S50000x128_1_0_0_1_n_n.lhsIdx i ((contrEquiv1 dot_S50000x512_S512x128_S50000x128_1_0_0_1_n_n 512 rfl rfl).symm k) = ix2 ⟨(i 0).val, (i 0).isLt⟩ k :=
    funext fun a => Fin.ext (by
      match a with
      | ⟨0, _⟩ => exact lhs1_row _ _
      | ⟨1, _⟩ => exact (lhs1_col _ _).trans hk)
  have er : dot_S50000x512_S512x128_S50000x128_1_0_0_1_n_n.rhsIdx i ((contrEquiv1 dot_S50000x512_S512x128_S50000x128_1_0_0_1_n_n 512 rfl rfl).symm k) = ix2 k ⟨(i 1).val, (i 1).isLt⟩ :=
    funext fun a => Fin.ext (by
      match a with
      | ⟨0, _⟩ => exact (rhs1_row _ _).trans hk
      | ⟨1, _⟩ => exact rhs1_col _ _)
  rw [el, er] <;> rfl

theorem lhs2_row (i : S50000x40.Idx) (q : dot_S50000x128_S128x40_S50000x40_1_0_0_1_n_n.contr.Idx) : (dot_S50000x128_S128x40_S50000x40_1_0_0_1_n_n.lhsIdx i q 0).val = (i 0).val := by
  unfold DotDims.lhsIdx
  rw [dif_neg (show ¬(0 : Fin S50000x128.rank) ∈ dot_S50000x128_S128x40_S50000x40_1_0_0_1_n_n.lhsBatch by decide),
    dif_pos (show (0 : Fin S50000x128.rank) ∈ dot_S50000x128_S128x40_S50000x40_1_0_0_1_n_n.lhsNonContracting by decide)]
  rfl
theorem lhs2_col (i : S50000x40.Idx) (q : dot_S50000x128_S128x40_S50000x40_1_0_0_1_n_n.contr.Idx) : (dot_S50000x128_S128x40_S50000x40_1_0_0_1_n_n.lhsIdx i q 1).val = (q ⟨0, by decide⟩).val :=
  dot_S50000x128_S128x40_S50000x40_1_0_0_1_n_n.lhsIdx_val_of_single rfl i q
theorem rhs2_row (i : S50000x40.Idx) (q : dot_S50000x128_S128x40_S50000x40_1_0_0_1_n_n.contr.Idx) : (dot_S50000x128_S128x40_S50000x40_1_0_0_1_n_n.rhsIdx i q 0).val = (q ⟨0, by decide⟩).val :=
  dot_S50000x128_S128x40_S50000x40_1_0_0_1_n_n.rhsIdx_val_of_single rfl i q
theorem rhs2_col (i : S50000x40.Idx) (q : dot_S50000x128_S128x40_S50000x40_1_0_0_1_n_n.contr.Idx) : (dot_S50000x128_S128x40_S50000x40_1_0_0_1_n_n.rhsIdx i q 1).val = (i 1).val := by
  unfold DotDims.rhsIdx
  rw [dif_neg (show ¬(1 : Fin S128x40.rank) ∈ dot_S50000x128_S128x40_S50000x40_1_0_0_1_n_n.rhsBatch by decide),
    dif_pos (show (1 : Fin S128x40.rank) ∈ dot_S50000x128_S128x40_S50000x40_1_0_0_1_n_n.rhsNonContracting by decide)]
  rfl

/-- The second layer's product on the host is the matrix product. -/
theorem product2_eq (x : FVec Ideal S50000x128 .f32) (w : FVec Ideal S128x40 .f32) :
    Host.dotGeneral dot_S50000x128_S128x40_S50000x40_1_0_0_1_n_n none x w = Cert.KernelIdeal.Product2.matProd x w := by
  funext i
  simp only [Host.dotGeneral]
  rw [Ideal.dotGeneral_apply, ← Equiv.sum_comp (contrEquiv1 dot_S50000x128_S128x40_S50000x40_1_0_0_1_n_n 128 rfl rfl).symm]
  show _ = ∑ k : Fin 128, x (ix2 ⟨(i 0).val, (i 0).isLt⟩ k) * w (ix2 k ⟨(i 1).val, (i 1).isLt⟩)
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx i ((contrEquiv1 dot_S50000x128_S128x40_S50000x40_1_0_0_1_n_n 128 rfl rfl).symm k) = ix2 ⟨(i 0).val, (i 0).isLt⟩ k :=
    funext fun a => Fin.ext (by
      match a with
      | ⟨0, _⟩ => exact lhs2_row _ _
      | ⟨1, _⟩ => exact (lhs2_col _ _).trans hk)
  have er : dot_S50000x128_S128x40_S50000x40_1_0_0_1_n_n.rhsIdx i ((contrEquiv1 dot_S50000x128_S128x40_S50000x40_1_0_0_1_n_n 128 rfl rfl).symm k) = ix2 k ⟨(i 1).val, (i 1).isLt⟩ :=
    funext fun a => Fin.ext (by
      match a with
      | ⟨0, _⟩ => exact (rhs2_row _ _).trans hk
      | ⟨1, _⟩ => exact rhs2_col _ _)
  rw [el, er] <;> rfl

/-! ## The two bias terms -/

/-- The first bias made one row and repeated down the matrix reads, at (r, j), the vector's entry j. -/
theorem bias1_at (b : FVec Ideal S128 .f32) (i : S50000x128.Idx) :
    broadcastInDim S50000x128 ![0, 1] bcast_S1x128_S50000x128_0_1 (broadcastInDim S1x128 ![1] bcast_S128_S1x128_1 b) i
      = b (ix1 ⟨(i 1).val, (i 1).isLt⟩) := by
  refine (broadcastInDim_apply _ bcast_S1x128_S50000x128_0_1 _ i (ix2 (0 : Fin 1) ⟨(i 1).val, (i 1).isLt⟩) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ bcast_S128_S1x128_1 b _ (ix1 ⟨(i 1).val, (i 1).isLt⟩) (fun a => match a with
    | ⟨0, _⟩ => by show (i 1).val = if (128 : Nat) = 1 then 0 else (i 1).val; rw [if_neg (by decide)])

/-- The second bias likewise. -/
theorem bias2_at (b : FVec Ideal S40 .f32) (i : S50000x40.Idx) :
    broadcastInDim S50000x40 ![0, 1] bcast_S1x40_S50000x40_0_1 (broadcastInDim S1x40 ![1] bcast_S40_S1x40_1 b) i
      = b (ix1 ⟨(i 1).val, (i 1).isLt⟩) := by
  refine (broadcastInDim_apply _ bcast_S1x40_S50000x40_0_1 _ i (ix2 (0 : Fin 1) ⟨(i 1).val, (i 1).isLt⟩) (fun a => match a with
    | ⟨0, _⟩ => by show 0 = if (1 : Nat) = 1 then 0 else (i 0).val; rw [if_pos rfl]
    | ⟨1, _⟩ => by show (i 1).val = if (40 : Nat) = 1 then 0 else (i 1).val; rw [if_neg (by decide)])).trans ?_
  exact broadcastInDim_apply _ bcast_S40_S1x40_1 b _ (ix1 ⟨(i 1).val, (i 1).isLt⟩) (fun a => match a with
    | ⟨0, _⟩ => by show (i 1).val = if (40 : Nat) = 1 then 0 else (i 1).val; rw [if_neg (by decide)])

/-- Layer 1's bias and cut at zero on the host are the kernel region's function. -/
theorem biasRelu1_eq (a : FVec Ideal S50000x128 .f32) (b : FVec Ideal S128 .f32) :
    maximumf (addf a (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
      = Cert.KernelIdeal.Bias1.rowwise a b := by
  funext i
  show max (a i + broadcastInDim S50000x128 ![0, 1] bcast_S1x128_S50000x128_0_1 (broadcastInDim S1x128 ![1] bcast_S128_S1x128_1 b) i)
      (broadcastInDim S50000x128 ![] bcast_S_S50000x128 (constant (F := Ideal) S_ .f32 0x00000000#32) i)
    = max (a i + b (ix1 ⟨(i 1).val, (i 1).isLt⟩)) (Ideal.ofBits .f32 0x00000000#32)
  rw [bias1_at, broadcastInDim_apply _ bcast_S_S50000x128 _ i ix0 (fun a => a.elim0)]
  rfl

/-- Layer 2's bias on the host is the kernel region's function. -/
theorem bias2_eq (a : FVec Ideal S50000x40 .f32) (b : FVec Ideal S40 .f32) :
    addf a (broadcastInDim S50000x40 ![0, 1] bcast_S1x40_S50000x40_0_1 (broadcastInDim S1x40 ![1] bcast_S40_S1x40_1 b))
      = Cert.KernelIdeal.Bias2.rowwise a b := by
  funext i
  show a i + broadcastInDim S50000x40 ![0, 1] bcast_S1x40_S50000x40_0_1 (broadcastInDim S1x40 ![1] bcast_S40_S1x40_1 b) i
    = a i + b (ix1 ⟨(i 1).val, (i 1).isLt⟩)
  rw [bias2_at]

/-! ## The neighbourhood sums: the same host operations in both programs -/

theorem agg1_eq (sup : FVec Ideal S50000x128 .f32) (ei : (⟨S2x1600000, .i32⟩ : BufTy).Contents (Elt Ideal)) (ew : FVec Ideal S1600000 .f32) :
    RefValue.agg1 (F := Ideal) sup ei ew = Cert.KernelIdeal.WholeRun.agg1 (F := Ideal) sup ei ew := rfl

theorem agg2_eq (sup : FVec Ideal S50000x40 .f32) (ei : (⟨S2x1600000, .i32⟩ : BufTy).Contents (Elt Ideal)) (ew : FVec Ideal S1600000 .f32) :
    RefValue.agg2 (F := Ideal) sup ei ew = Cert.KernelIdeal.WholeRun.agg2 (F := Ideal) sup ei ew := rfl

/-! ## The log-softmax -/

/-- A vector kept as a column reads, at (r, u), the vector at r. -/
theorem col_at (y : FVec Ideal S50000 .f32) (r : Fin 50000) (u : Fin 1) :
    broadcastInDim S50000x1 ![0] bcast_S50000_S50000x1_0 y (ix2 r u) = y (ix1 r) :=
  broadcastInDim_apply _ bcast_S50000_S50000x1_0 y (ix2 r u) (ix1 r) (fun a => match a with
    | ⟨0, _⟩ => by show r.val = if (50000 : Nat) = 1 then 0 else r.val; rw [if_neg (by decide)])

/-- A column repeated along the rows reads, at (r, j), the column at row r. -/
theorem wide_at (y : FVec Ideal S50000x1 .f32) (r : Fin 50000) (j : Fin 40) :
    broadcastInDim S50000x40 ![0, 1] bcast_S50000x1_S50000x40_0_1 y (ix2 r j) = y (ix2 r (0 : Fin 1)) :=
  broadcastInDim_apply _ bcast_S50000x1_S50000x40_0_1 y (ix2 r j) (ix2 r (0 : Fin 1)) (fun a => match a with
    | ⟨0, _⟩ => by show r.val = if (50000 : Nat) = 1 then 0 else r.val; rw [if_neg (by decide)]
    | ⟨1, _⟩ => by show 0 = if (1 : Nat) = 1 then 0 else j.val; rw [if_pos rfl])

/-- The host's maximum along a row is the fold of `max` over the row's 40 entries from its starting value. -/
theorem hostRowMax_at (s : FVec Ideal S50000x40 .f32) (r : Fin 50000) :
    Host.reduce FloatOps.maximumf s (constant (F := Ideal) S_ .f32 0xFF800000#32) reducesTo_S50000x40_S50000_d1 h_S_ (ix1 r)
      = rowTop s r := by
  refine (Host.reduce_eq_fold_single FloatOps.maximumf s _ reducesTo_S50000x40_S50000_d1 (by decide) h_S_ (ix1 r)).trans ?_
  rw [constant_apply]
  exact congrArg (fun f : Fin 40 → EReal => (Finset.univ : Finset (Fin 40)).fold max (Ideal.ofBits .f32 0xFF800000#32) f)
    (funext fun k => congrArg s (funext fun a => Fin.ext (by match a with | ⟨0, _⟩ => rfl | ⟨1, _⟩ => rfl)))

/-- Comparing that maximum once more with the starting value changes nothing: a fold of `max` is at least where it starts. -/
theorem rowMax_at (s : FVec Ideal S50000x40 .f32) (r : Fin 50000) : RefValue.rowMax (F := Ideal) s (ix1 r) = rowTop s r := by
  unfold RefValue.rowMax
  rw [maximumf_apply, hostRowMax_at, broadcastInDim_apply _ bcast_S_S50000 _ (ix1 r) ix0 (fun a => a.elim0), constant_apply]
  unfold rowTop
  refine max_eq_right ?_
  exact (Finset.le_fold_max _).mpr (Or.inl (le_refl _))

theorem shifted_at (s : FVec Ideal S50000x40 .f32) (r : Fin 50000) (j : Fin 40) :
    RefValue.shifted (F := Ideal) s (ix2 r j) = s (ix2 r j) - rowTop s r := by
  unfold RefValue.shifted
  show s (ix2 r j) - broadcastInDim S50000x40 ![0, 1] bcast_S50000x1_S50000x40_0_1
    (broadcastInDim S50000x1 ![0] bcast_S50000_S50000x1_0 (RefValue.rowMax (F := Ideal) s)) (ix2 r j) = _
  rw [wide_at, col_at, rowMax_at]

/-- The host's sum along a row, started from zero, is the sum of the row's 40 entries. -/
theorem hostRowSum_at (E : FVec Ideal S50000x40 .f32) (r : Fin 50000) :
    Host.reduceAdd E (constant (F := Ideal) S_ .f32 0x00000000#32) reducesTo_S50000x40_S50000_d1 h_S_ (ix1 r)
      = ∑ k : Fin 40, E (ix2 r k) := by
  simp only [Host.reduceAdd, Ideal.hostReduceAdd_def]
  rw [Ideal.hostReduceAdd_single reducesTo_S50000x40_S50000_d1 (by decide)]
  refine (congrArg (· + _) (show constant (F := Ideal) S_ .f32 0x00000000#32 (Shape.Idx.first h_S_) = 0 from Ideal.ofBits_zero_f32)).trans ?_
  rw [zero_add]
  exact Finset.sum_congr rfl fun k _ =>
    congrArg E (funext fun a => Fin.ext (by match a with | ⟨0, _⟩ => rfl | ⟨1, _⟩ => rfl))

/-- The host's log-softmax is the kernel region's function. -/
theorem logSoftmax_eq (s : FVec Ideal S50000x40 .f32) : RefValue.logSoftmax (F := Ideal) s = logSoftmaxRows s := by
  funext i
  obtain ⟨r, j, rfl⟩ : ∃ (r : Fin 50000) (j : Fin 40), i = ix2 r j := ⟨i 0, i 1, eq_ix2 i⟩
  unfold RefValue.logSoftmax
  show RefValue.shifted (F := Ideal) s (ix2 r j) - broadcastInDim S50000x40 ![0, 1] bcast_S50000x1_S50000x40_0_1
    (Host.log (broadcastInDim S50000x1 ![0] bcast_S50000_S50000x1_0 (Host.reduceAdd (Host.exp (RefValue.shifted (F := Ideal) s))
      (constant (F := Ideal) S_ .f32 0x00000000#32) reducesTo_S50000x40_S50000_d1 h_S_))) (ix2 r j) = _
  rw [wide_at]
  show RefValue.shifted (F := Ideal) s (ix2 r j) - FloatOps.hostUnary (F := Ideal) (φ := .f32) .log (broadcastInDim S50000x1 ![0] bcast_S50000_S50000x1_0
    (Host.reduceAdd (Host.exp (RefValue.shifted (F := Ideal) s)) (constant (F := Ideal) S_ .f32 0x00000000#32)
      reducesTo_S50000x40_S50000_d1 h_S_) (ix2 r (0 : Fin 1))) = _
  have hexp : ∀ k : Fin 40, Host.exp (F := Ideal) (φ := .f32) (RefValue.shifted (F := Ideal) s) (ix2 r k)
      = Ideal.exp (s (ix2 r k) - rowTop s r) := fun k => by
    show FloatOps.hostUnary (F := Ideal) (φ := .f32) .exp (RefValue.shifted (F := Ideal) s (ix2 r k)) = _
    rw [Ideal.hostUnary_exp_def, shifted_at]
  rw [Ideal.hostUnary_log_def, col_at, hostRowSum_at, shifted_at, Finset.sum_congr rfl (fun k _ => hexp k)]
  rfl

/-! ## The two results -/

/-- The reference's result and the kernel program's are one function of the nine arguments. -/
theorem result_eq (x : FVec Ideal S50000x512 .f32) (ei1 : (⟨S2x1600000, .i32⟩ : BufTy).Contents (Elt Ideal)) (ew1 : FVec Ideal S1600000 .f32)
    (ei2 : (⟨S2x1600000, .i32⟩ : BufTy).Contents (Elt Ideal)) (ew2 : FVec Ideal S1600000 .f32)
    (w1 : FVec Ideal S512x128 .f32) (b1 : FVec Ideal S128 .f32) (w2 : FVec Ideal S128x40 .f32) (b2 : FVec Ideal S40 .f32) :
    RefValue.result (F := Ideal) x ei1 ew1 ei2 ew2 w1 b1 w2 b2
      = Cert.KernelIdeal.WholeRun.result x ei1 ew1 ei2 ew2 w1 b1 w2 b2 := by
  unfold RefValue.result RefValue.scores2 RefValue.hidden1 Cert.KernelIdeal.WholeRun.result
  rw [product1_eq, agg1_eq, biasRelu1_eq, product2_eq, agg2_eq, bias2_eq, logSoftmax_eq]

end Cert.Bridge

end
-- ==== Proof.lean ====
/-
  A two-layer graph convolution followed by a row-wise log-softmax, as a kernel program of five regions against a
  host reference:
      h₁ = max (A₁ (x · W₁) + b₁) 0,     s = A₂ (h₁ · W₂) + b₂,     out = s − rowmax s − log Σ exp (s − rowmax s),
  where Aᵢ sends, along every edge of the i-th edge table, the edge's weight times the source node's row to the target
  node's row and sums what each node is sent.
  The kernel program computes the two dense products, the two bias stages and the log-softmax in regions that each
  work on 25 blocks of 2000 rows; the neighbourhood sums are host operations between the regions, the same ones the
  reference applies. On the extended reals a block of rows of a product, of a row-wise bias, or of a row-wise
  log-softmax is the same rows of the whole array's, so each region's result is the reference's stage, and the two
  programs' results are one function of the arguments. No step uses that the inputs are finite: the stages are equal
  operation by operation, the only reordering being the split of the rows into blocks.
  The ideal pass rewrote nothing, so the idealization claim is trivial; the kernel programs' frames are their
  generated frame certificates, the reference's frame its run with the result dropped.
-/
import proofs.«176632_j53085795778707_1_alg».proof.Defs
import proofs.«176632_j53085795778707_1_alg».proof.Proof.Gen.Kernel
import proofs.«176632_j53085795778707_1_alg».proof.Proof.Gen.Kernel.Skeleton
import proofs.«176632_j53085795778707_1_alg».proof.Proof.Gen.Kernel.Launch
import proofs.«176632_j53085795778707_1_alg».proof.Proof.Gen.Kernel.Points
import proofs.«176632_j53085795778707_1_alg».proof.Proof.Gen.Kernel.Frame
import proofs.«176632_j53085795778707_1_alg».proof.Proof.Gen.KernelIdeal
import proofs.«176632_j53085795778707_1_alg».proof.Proof.Gen.KernelIdeal.Skeleton
import proofs.«176632_j53085795778707_1_alg».proof.Proof.Gen.KernelIdeal.Launch
import proofs.«176632_j53085795778707_1_alg».proof.Proof.Gen.KernelIdeal.Points
import proofs.«176632_j53085795778707_1_alg».proof.Proof.Gen.KernelIdeal.Frame
import proofs.«176632_j53085795778707_1_alg».proof.Proof.Gen.ReferenceIdeal
import proofs.«176632_j53085795778707_1_alg».proof.Proof.Gen.Pre_finite_inputs
import proofs.«176632_j53085795778707_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- From memories that agree on the arguments the kernel program ends with its result at its function of the
    arguments, the reference with its result at its own, and the two functions are one. -/
theorem algebraic : Cert.algebraic_KernelIdeal_ReferenceIdeal := by
  intro m ρ m' ρ' _ hagree
  refine ⟨_, Cert.KernelIdeal.WholeRun.run m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4, a5, a6, a7, a8, a9⟩ := hagree c
  rw [a0, a2, a3, a4, a5, a6, a7, a8, a9]
  exact Cert.Bridge.result_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
